-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S1 : Shape := ⟨1, ![1]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S512x512 .f32) (main_arg1 : IVec S512 32) (main_arg2 : FVec F S100000x512 .f32) (main_arg3 : FVec F S1 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S512x512 : Shape := ⟨2, ![512, 512]⟩
abbrev S512 : Shape := ⟨1, ![512]⟩
abbrev S100000x512 : Shape := ⟨2, ![100000, 512]⟩
abbrev S1 : Shape := ⟨1, ![1]⟩
abbrev S_ : Shape := ⟨0, ![]⟩
abbrev S512x1 : Shape := ⟨2, ![512, 1]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 21
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S1, .f32⟩
  | .hbm, ⟨4, _⟩ => ⟨S512x512, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x512, .f32⟩
  | .hbm, ⟨13, _⟩ => ⟨S512x512, .f32⟩
  | .hbm, ⟨14, _⟩ => ⟨S512x512, .bf16⟩
  | .hbm, ⟨15, _⟩ => ⟨S512x1, .i32⟩
  | .hbm, ⟨16, _⟩ => ⟨S1x1, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x1, .i32⟩
  | .local _ .vmem, ⟨4, _⟩ => ⟨S1x1, .f32⟩
  | .local _ .vmem, ⟨5, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S512x1 : S512.ShapeCasts S512x1
  shapeCasts_S1_S1x1 : S1.ShapeCasts S1x1
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inpos_S1x1_p0_0 : ∀ a, (![0, 0] : Fin 2 → Nat) a < S1x1.size a
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  reduces_S512x1024_S512 : S512x1024.Reduces [1] S512
  reduces_S512x1_S1 : S512x1.Reduces [0] S1
  shapeCasts_S1x1_S1x1 : S1x1.ShapeCasts S1x1
  shapeCasts_S1x1_S_ : S1x1.ShapeCasts S_
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x512.size a < S100000x512.size a
  hwx0_0 : ∀ i : grid0.Coords, EltTy.bits .f32 = 32 ∨ (Rect.unit (s := S100000x512) (fun a => cc0_transform_0 i a * S1024x512.size a) (fun a => (Pipeline.Clip.of (cc0_transform_0 i a) (S1024x512.size a) (S100000x512.size a)).extent (S1024x512.size a)) fun a => Pipeline.Clip.inb (Pipeline.Clip.ok_of (hstart0_0 i a))).WholeWords (EltTy.packing .f32)
  hwxs0_0 : ∀ i : grid0.Coords, EltTy.bits .f32 = 32 ∨ (Rect.unit (s := S1024x512) (fun _ => 0) (fun a => (Pipeline.Clip.of (cc0_transform_0 i a) (S1024x512.size a) (S100000x512.size a)).extent (S1024x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpecClip (Memref.whole main_arg2) S1024x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v8) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S1 : Shape := ⟨1, ![1]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x1 : Shape := ⟨2, ![1, 1]⟩
abbrev S1x100000 : Shape := ⟨2, ![1, 100000]⟩

abbrev nBuf : Space → Nat
  | .hbm => 74
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S1, .f32⟩
  | .hbm, ⟨4, _⟩ => ⟨S512x512, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x512, .f32⟩
  | .hbm, ⟨13, _⟩ => ⟨S512x512, .f32⟩
  | .hbm, ⟨14, _⟩ => ⟨S100000x512, .f32⟩
  | .hbm, ⟨15, _⟩ => ⟨S_, .f32⟩
  | .hbm, ⟨16, _⟩ => ⟨S100000, .f32⟩
  | .hbm, ⟨17, _⟩ => ⟨S100000x1, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000x512, .f32⟩
  | .hbm, ⟨23, _⟩ => ⟨S100000x512, .f32⟩
  | .hbm, ⟨24, _⟩ => ⟨S512x100000, .f32⟩
  | .hbm, ⟨25, _⟩ => ⟨S512x100000, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S1x1, .f32⟩
  | .hbm, ⟨33, _⟩ => ⟨S512x100000, .f32⟩
  | .hbm, ⟨34, _⟩ => ⟨S512x100000, .f32⟩
  | .hbm, ⟨35, _⟩ => ⟨S_, .f32⟩
  | .hbm, ⟨36, _⟩ => ⟨S512x100000, .f32⟩
  | .hbm, ⟨37, _⟩ => ⟨S512x100000, .f32⟩
  | .hbm, ⟨38, _⟩ => ⟨S1x1, .f32⟩
  | .hbm, ⟨39, _⟩ => ⟨S512x100000, .f32⟩
  | .hbm, ⟨40, _⟩ => ⟨S512x100000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S512x100000, .f32⟩
  | .hbm, ⟨45, _⟩ => ⟨S512x100000, .f32⟩
  | .hbm, ⟨46, _⟩ => ⟨S_, .f32⟩
  | .hbm, ⟨47, _⟩ => ⟨S512x100000, .f32⟩
  | .hbm, ⟨48, _⟩ => ⟨S512x100000, .f32⟩
  | .hbm, ⟨49, _⟩ => ⟨S512x100000, .f32⟩
  | .hbm, ⟨50, _⟩ => ⟨S512x100000, .f32⟩
  | .hbm, ⟨51, _⟩ => ⟨S512x100000, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S512x100000, .f32⟩
  | .hbm, ⟨56, _⟩ => ⟨S512x100000, .f32⟩
  | .hbm, ⟨57, _⟩ => ⟨S_, .f32⟩
  | .hbm, ⟨58, _⟩ => ⟨S512x100000, .f32⟩
  | .hbm, ⟨59, _⟩ => ⟨S512x100000, .f32⟩
  | .hbm, ⟨60, _⟩ => ⟨S512x100000, .f32⟩
  | .hbm, ⟨61, _⟩ => ⟨S512x100000, .f32⟩
  | .hbm, ⟨62, _⟩ => ⟨S512x1, .i32⟩
  | .hbm, ⟨63, _⟩ => ⟨S1x100000, .i32⟩
  | .hbm, ⟨64, _⟩ => ⟨S512x100000, .i32⟩
  | .hbm, ⟨65, _⟩ => ⟨S512x100000, .i32⟩
  | .hbm, ⟨66, _⟩ => ⟨S512x100000, .i1⟩
  | .hbm, ⟨67, _⟩ => ⟨S512x100000, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_cst_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_v31 : Ref sig .tc := ⟨.hbm, 66, rfl⟩
abbrev main_v32 : Ref sig .tc := ⟨.hbm, 67, rfl⟩
abbrev main_cst_8 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_cst_10 : Ref sig .tc := ⟨.hbm, 72, rfl⟩
abbrev main_v35 : Ref sig .tc := ⟨.hbm, 73, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S1_S1x1_1 : S1.BroadcastsInDim S1x1 (![1] : Fin 1 → Fin S1x1.rank)
  bcast_S1x1_S512x100000_0_1 : S1x1.BroadcastsInDim S512x100000 (![0, 1] : Fin 2 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  reducesTo_S512_S_d0 : S512.ReducesTo [0] S_
  dot_S512x512_S512x100000_S512x100000_1_0_0_1_n_n_wf : DotDims.WF S512x512 S512x100000 S512x100000 [1] [0] [0] [1] [] []

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf

class Facts : Prop extends Facts₀ where

variable [Facts]
-- ==== Proof.BodyK.lean ====
/-
  The kernel body's triple, at any float instance.

  At grid point `i` the body finds five whole staging buffers: a tile of 1024 rows of the table (`X0`), the
  normalized batch (`X1`), the labels (`X2`), the bias (`X3`) and the one-element accumulator (`X4`). At the first
  point it stores zero into the accumulator's buffer; at every point it loads the four inputs whole, loads the
  accumulator, and stores back the accumulator plus the tile's sum of losses. Every access is a whole buffer at
  offsets zero, so a load reads the buffer's contents and a store replaces them: the four inputs' buffers are left
  as found and the accumulator's holds `bodyOut`, the payload of the last store over the values loaded. The
  conditional region is decided by the point: its guard holds exactly when the grid coordinate is zero.
-/
import proofs.«112446_j19344532701365_1_alg».proof.Proof.Gen.Kernel.Launch
import proofs.«112446_j19344532701365_1_alg».proof.Proof.Gen.Kernel.Skeleton
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

abbrev 𝒱₀ : Variants := Variants.none

/-- The guard of the body's conditional region holds exactly at the first grid point. -/
theorem guard_iff : ∀ i : grid0.Coords,
    (Scalar.cmpi .ne (Scalar.extui (Scalar.cmpi .eq (BitVec.ofNat 32 (i 0).val) 0#32)) 0#32 = 1#1) ↔ (i 0).val = 0 := by
  decide +kernel

/-- What the body leaves in the accumulator's buffer at grid point `i`, from what the five buffers hold when it
    starts: the tile's sum added to the accumulator, which is first reset to zero at the first point. -/
def bodyOut (i : grid0.Coords) (X0 : S1024x512.Idx → Elt F .f32) (X1 : S512x512.Idx → Elt F .bf16) (X2 : S512x1.Idx → Elt F .i32)
    (X3 X4 : S1x1.Idx → Elt F .f32) : S1x1.Idx → Elt F .f32 :=
  k0_pay1 (BitVec.ofNat 32 (i 0).val) (k0_pay5 X0 X1 X3) (k0_pay6 X0 X1 X3) X2 (if (i 0).val = 0 then k0_pay2 else X4)

/-- The body at the first grid point: the accumulator's buffer is reset to zero, then the tile's sum added to it. -/
theorem sound_first (c : Dev nD) (E : Set ℕ) (i : grid0.Coords) (h0 : (i 0).val = 0) (s0 : Fin 2) (s1 s2 s3 s4 : Fin 1)
    (X0 : S1024x512.Idx → Elt F .f32) (X1 : S512x512.Idx → Elt F .bf16) (X2 : S512x1.Idx → Elt F .i32)
    (X3 X4 : S1x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (k0_pay1 (BitVec.ofNat 32 (i 0).val) (k0_pay5 X0 X1 X3) (k0_pay6 X0 X1 X3) X2 k0_pay2)) -∗ K ⟨⟩))
      ⊢ wp frame (wpE (defs₀ (F := F)) 𝒱₀ c none) E
          (cc0__kernel i (stage0_0 s0) (hstage0_0 s0) (stage0_1 s1) (hstage0_1 s1) (stage0_2 s2) (hstage0_2 s2)
            (stage0_3 s3) (hstage0_3 s3) (stage0_4 s4) (hstage0_4 s4)) K := by
  have hz : (![0, 0] : Fin 2 → Nat) = fun _ => 0 := funext fun a => by fin_cases a <;> rfl
  have hr00 : ∀ f, (Memref.whole cc0_stg0_0 : Memref sig .tc _ _ _).view.readAt (Elt F) (Rect.unit (s := S1024x512) ![0, 0] S1024x512.size
      inb_S1024x512_S1024x512_0_0).toLoadRect f = f := Memref.readAt_unit_zero (Elt F) cc0_stg0_0 hz _
  have hr01 : ∀ f, (Memref.whole cc0_stg0_1 : Memref sig .tc _ _ _).view.readAt (Elt F) (Rect.unit (s := S1024x512) ![0, 0] S1024x512.size
      inb_S1024x512_S1024x512_0_0).toLoadRect f = f := Memref.readAt_unit_zero (Elt F) cc0_stg0_1 hz _
  have hr1 : ∀ f, (Memref.whole cc0_stg1_0 : Memref sig .tc _ _ _).view.readAt (Elt F) (Rect.unit (s := S512x512) ![0, 0] S512x512.size
      inb_S512x512_S512x512_0_0).toLoadRect f = f := Memref.readAt_unit_zero (Elt F) cc0_stg1_0 hz _
  have hr2 : ∀ f, (Memref.whole cc0_stg2_0 : Memref sig .tc _ _ _).view.readAt (Elt F) (Rect.unit (s := S512x1) ![0, 0] S512x1.size
      inb_S512x1_S512x1_0_0).toLoadRect f = f := Memref.readAt_unit_zero (Elt F) cc0_stg2_0 hz _
  have hr3 : ∀ f, (Memref.whole cc0_stg3_0 : Memref sig .tc _ _ _).view.readAt (Elt F) (Rect.unit (s := S1x1) ![0, 0] S1x1.size
      inb_S1x1_S1x1_0_0).toLoadRect f = f := Memref.readAt_unit_zero (Elt F) cc0_stg3_0 hz _
  have hr4 : ∀ f, (Memref.whole cc0_stg4_0 : Memref sig .tc _ _ _).view.readAt (Elt F) (Rect.unit (s := S1x1) ![0, 0] S1x1.size
      inb_S1x1_S1x1_0_0).toLoadRect f = f := Memref.readAt_unit_zero (Elt F) cc0_stg4_0 hz _
  have hw4 : ∀ f w, (((Memref.whole cc0_stg4_0).access (Rect.unit (s := S1x1) ![0, 0] S1x1.size inb_S1x1_S1x1_0_0)) :
      View sig .tc _ _ _).write (Elt F) f w Finset.univ = w := Memref.write_access_unit_zero_univ (Elt F) cc0_stg4_0 hz _
  have hW4 : ∀ f w1 w2, (Memref.whole cc0_stg4_0 : Memref sig .tc _ _ _).view.writes (Elt F) f
      [⟨Rect.unit (s := S1x1) ![0, 0] S1x1.size inb_S1x1_S1x1_0_0, w2⟩, ⟨Rect.unit (s := S1x1) ![0, 0] S1x1.size inb_S1x1_S1x1_0_0, w1⟩] = w2 :=
    fun f w1 w2 => hw4 _ w2
  have hc := (guard_iff i).mpr h0
  fin_cases s0 <;> fin_cases s1 <;> fin_cases s2 <;> fin_cases s3 <;> fin_cases s4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_pos hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hW4, hw4, hr4, hr00, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_pos hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hW4, hw4, hr4, hr01, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4

/-- The body at a later grid point: the tile's sum added to what the accumulator's buffer holds. -/
theorem sound_later (c : Dev nD) (E : Set ℕ) (i : grid0.Coords) (h0 : (i 0).val ≠ 0) (s0 : Fin 2) (s1 s2 s3 s4 : Fin 1)
    (X0 : S1024x512.Idx → Elt F .f32) (X1 : S512x512.Idx → Elt F .bf16) (X2 : S512x1.Idx → Elt F .i32)
    (X3 X4 : S1x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (k0_pay1 (BitVec.ofNat 32 (i 0).val) (k0_pay5 X0 X1 X3) (k0_pay6 X0 X1 X3) X2 X4)) -∗ K ⟨⟩))
      ⊢ wp frame (wpE (defs₀ (F := F)) 𝒱₀ c none) E
          (cc0__kernel i (stage0_0 s0) (hstage0_0 s0) (stage0_1 s1) (hstage0_1 s1) (stage0_2 s2) (hstage0_2 s2)
            (stage0_3 s3) (hstage0_3 s3) (stage0_4 s4) (hstage0_4 s4)) K := by
  have hz : (![0, 0] : Fin 2 → Nat) = fun _ => 0 := funext fun a => by fin_cases a <;> rfl
  have hr00 : ∀ f, (Memref.whole cc0_stg0_0 : Memref sig .tc _ _ _).view.readAt (Elt F) (Rect.unit (s := S1024x512) ![0, 0] S1024x512.size
      inb_S1024x512_S1024x512_0_0).toLoadRect f = f := Memref.readAt_unit_zero (Elt F) cc0_stg0_0 hz _
  have hr01 : ∀ f, (Memref.whole cc0_stg0_1 : Memref sig .tc _ _ _).view.readAt (Elt F) (Rect.unit (s := S1024x512) ![0, 0] S1024x512.size
      inb_S1024x512_S1024x512_0_0).toLoadRect f = f := Memref.readAt_unit_zero (Elt F) cc0_stg0_1 hz _
  have hr1 : ∀ f, (Memref.whole cc0_stg1_0 : Memref sig .tc _ _ _).view.readAt (Elt F) (Rect.unit (s := S512x512) ![0, 0] S512x512.size
      inb_S512x512_S512x512_0_0).toLoadRect f = f := Memref.readAt_unit_zero (Elt F) cc0_stg1_0 hz _
  have hr2 : ∀ f, (Memref.whole cc0_stg2_0 : Memref sig .tc _ _ _).view.readAt (Elt F) (Rect.unit (s := S512x1) ![0, 0] S512x1.size
      inb_S512x1_S512x1_0_0).toLoadRect f = f := Memref.readAt_unit_zero (Elt F) cc0_stg2_0 hz _
  have hr3 : ∀ f, (Memref.whole cc0_stg3_0 : Memref sig .tc _ _ _).view.readAt (Elt F) (Rect.unit (s := S1x1) ![0, 0] S1x1.size
      inb_S1x1_S1x1_0_0).toLoadRect f = f := Memref.readAt_unit_zero (Elt F) cc0_stg3_0 hz _
  have hr4 : ∀ f, (Memref.whole cc0_stg4_0 : Memref sig .tc _ _ _).view.readAt (Elt F) (Rect.unit (s := S1x1) ![0, 0] S1x1.size
      inb_S1x1_S1x1_0_0).toLoadRect f = f := Memref.readAt_unit_zero (Elt F) cc0_stg4_0 hz _
  have hw4 : ∀ f w, (((Memref.whole cc0_stg4_0).access (Rect.unit (s := S1x1) ![0, 0] S1x1.size inb_S1x1_S1x1_0_0)) :
      View sig .tc _ _ _).write (Elt F) f w Finset.univ = w := Memref.write_access_unit_zero_univ (Elt F) cc0_stg4_0 hz _
  have hW4 : ∀ f w1 w2, (Memref.whole cc0_stg4_0 : Memref sig .tc _ _ _).view.writes (Elt F) f
      [⟨Rect.unit (s := S1x1) ![0, 0] S1x1.size inb_S1x1_S1x1_0_0, w2⟩, ⟨Rect.unit (s := S1x1) ![0, 0] S1x1.size inb_S1x1_S1x1_0_0, w1⟩] = w2 :=
    fun f w1 w2 => hw4 _ w2
  have hc : ¬ (Scalar.cmpi .ne (Scalar.extui (Scalar.cmpi .eq (BitVec.ofNat 32 (i 0).val) 0#32)) 0#32 = 1#1) :=
    fun h => h0 ((guard_iff i).mp h)
  fin_cases s0 <;> fin_cases s1 <;> fin_cases s2 <;> fin_cases s3 <;> fin_cases s4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_neg hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hw4, hr4, hr00, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_neg hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hw4, hr4, hr01, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4

/-- The kernel body on whichever staging buffers the point uses: the five buffers whole, the four inputs' left as
    they were, the accumulator's left at `bodyOut`. -/
theorem sound_body (c : Dev nD) (E : Set ℕ) (i : grid0.Coords)  (s0 : Fin 2) (s1 s2 s3 s4 : Fin 1)
    (X0 : S1024x512.Idx → Elt F .f32) (X1 : S512x512.Idx → Elt F .bf16) (X2 : S512x1.Idx → Elt F .i32)
    (X3 X4 : S1x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (bodyOut i X0 X1 X2 X3 X4)) -∗ K ⟨⟩))
      ⊢ wp frame (wpE (defs₀ (F := F)) 𝒱₀ c none) E
          (cc0__kernel i (stage0_0 s0) (hstage0_0 s0) (stage0_1 s1) (hstage0_1 s1) (stage0_2 s2) (hstage0_2 s2)
            (stage0_3 s3) (hstage0_3 s3) (stage0_4 s4) (hstage0_4 s4)) K := by
  by_cases h0 : (i 0).val = 0
  · have hout : bodyOut i X0 X1 X2 X3 X4 = k0_pay1 (BitVec.ofNat 32 (i 0).val) (k0_pay5 X0 X1 X3) (k0_pay6 X0 X1 X3) X2 k0_pay2 := by
      unfold bodyOut; rw [if_pos h0]
    rw [hout]; exact sound_first c E i h0 s0 s1 s2 s3 s4 X0 X1 X2 X3 X4 K
  · have hout : bodyOut i X0 X1 X2 X3 X4 = k0_pay1 (BitVec.ofNat 32 (i 0).val) (k0_pay5 X0 X1 X3) (k0_pay6 X0 X1 X3) X2 X4 := by
      unfold bodyOut; rw [if_neg h0]
    rw [hout]; exact sound_later c E i h0 s0 s1 s2 s3 s4 X0 X1 X2 X3 X4 K

end Cert.Kernel.Hand

end
-- ==== Proof.FrameK.lean ====
/-
  The frame of the word-level program: it runs, and its four argument arrays end as they began.

  The table (argument 2) is the array of the one input window whose last block overhangs it; an input window's array
  is never written, whatever the staging buffers hold past the table's end. The other three arguments are read by
  host operations before the region and by nothing the region or the lines after it write. So nothing need be said
  of what the body computes: the proof data are relational, with the empty constraint on every staging buffer, and
  the body obligation is the body's triple with the contents it leaves forgotten.
-/
import proofs.«112446_j19344532701365_1_alg».proof.Proof.BodyK
import proofs.«112446_j19344532701365_1_alg».proof.Proof.Gen.Kernel.Frame
import proofs.«112446_j19344532701365_1_alg».proof.Proof.Gen.Pre_finite_inputs
import proofs.«112446_j19344532701365_1_alg».proof.Defs

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, relational: the arrays as the region finds them; of what the body leaves in a staging buffer
    nothing is said; the invariant the class's; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation, from the body's triple with the contents it leaves forgotten. -/
theorem body_obligation (c : Dev nD) : (rdat m c).BodyObligation (defs₀ (F := F)) 𝒱₀ () Set.univ := fun t Y _ => by
  rw [bigSep_W0, bigSep_W0]
  simp only
  rw [show (rdat m c).Φ t.succ = (rdat m c).Φ t.castSucc from rfl,
    show (rdat m c).owesAt () t.succ = (rdat m c).owesAt () t.castSucc from rfl]
  iintro ⟨HΦ, Ho, H0, H1, H2, H3, H4⟩
  iapply (sound_body (F := F) c Set.univ (grid0.coords t) (cfg0.slots t 0) (cfg0.slots t 1) (cfg0.slots t 2)
    (cfg0.slots t 3) (cfg0.slots t 4) (Y 0) (Y 1) (Y 2) (Y 3) (Y 4) _)
  isplitl [H0 H1 H2 H3 H4]
  · isplitl [H0]
    · iexact H0
    isplitl [H1]
    · iexact H1
    isplitl [H2]
    · iexact H2
    isplitl [H3]
    · iexact H3
    · iexact H4
  iintro ⟨H0, H1, H2, H3, H4⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  isplitl [H3]
  · iexists Y 3; isplitr; · ipureintro; trivial
    iexact H3
  · iexists bodyOut (grid0.coords t) (Y 0) (Y 1) (Y 2) (Y 3) (Y 4); isplitr; · ipureintro; trivial
    iexact H4

/-- The buffers the host lines after the region write. -/
def T : Finset (Ref sig .tc) := {main_v12, main_cst_1, main_v13}

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.nullary_writes, StableHlo.binary_writes, StableHlo.reshape_writes, Finset.mem_singleton] at hb
    obtain rfl := Proc.devRef_injective _ hb
    decide

theorem share_full (c : Dev nD) (w : Fin cfg0.W) : (rdat m c).share w = fullShare := by
  unfold RDat.share; split <;> rfl

set_option backward.isDefEq.respectTransparency.types false in
theorem run_main : θ_run defs (onTc (τ := τ) (main (F := F))) (s₀ m ρ)
    (RDat.FramePostR cfg0 (rdat m) T (fun c b => V0 m c (Proc.devRef .tc b))) :=
  Pipeline.RDat.θ_run_frame_around_T cfgs (0 : Fin 1) launch0 defs₀ 𝒱₀ (rdat m) T m ρ main
    (hbody := body_obligation m) (hshare := share_full m) (howed := fun _ _ => rfl)
    (V₀ := V0 m) (opss := [hostOps1]) (hsub := sfx_sub) (hfresh := sfx_fresh) (hkeep := sfx_keeps) (hT := sfx_T)
    (hmain := hmain m 𝒱₀) (hA := fun _ _ => rfl) (hΦ := fun _ _ => rfl)

/-- The frame at any float instance: the table is an input window's array, which no write-back touches; the other
    three arguments bypass the region and no host line after it writes them. -/
theorem frame_F : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    have h2 := (h c).1 0
    rw [(rdat m c).ArrAt_in 0 rfl] at h2
    exact ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      h2.trans (V_main_arg2 m c),
      ((h c).2 main_arg3 (Finset.mem_sdiff.mpr ⟨Pipeline.mem_restRefs_of main_arg3 (by decide) (by decide), by decide⟩)).trans (V_main_arg3 m c)⟩)
    (run_main m ρ)

/-- `Cert.frame_Kernel`: the frame at the bit-exact instance; the precondition is not used. -/
theorem frame : Cert.frame_Kernel (hKernel := Cert.Kernel.Gen.facts) (hPre_finite_inputs := Cert.Pre_finite_inputs.Gen.facts) :=
  fun m ρ _ => frame_F (F := Bits) m ρ

end Cert.Kernel.Hand

end
-- ==== Proof.BodyI.lean ====
/-
  The kernel body's triple, at any float instance.

  At grid point `i` the body finds five whole staging buffers: a tile of 1024 rows of the table (`X0`), the
  normalized batch (`X1`), the labels (`X2`), the bias (`X3`) and the one-element accumulator (`X4`). At the first
  point it stores zero into the accumulator's buffer; at every point it loads the four inputs whole, loads the
  accumulator, and stores back the accumulator plus the tile's sum of losses. Every access is a whole buffer at
  offsets zero, so a load reads the buffer's contents and a store replaces them: the four inputs' buffers are left
  as found and the accumulator's holds `bodyOut`, the payload of the last store over the values loaded. The
  conditional region is decided by the point: its guard holds exactly when the grid coordinate is zero.
-/
import proofs.«112446_j19344532701365_1_alg».proof.Proof.Gen.KernelIdeal.Launch
import proofs.«112446_j19344532701365_1_alg».proof.Proof.Gen.KernelIdeal.Skeleton
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

abbrev 𝒱₀ : Variants := Variants.none

/-- The guard of the body's conditional region holds exactly at the first grid point. -/
theorem guard_iff : ∀ i : grid0.Coords,
    (Scalar.cmpi .ne (Scalar.extui (Scalar.cmpi .eq (BitVec.ofNat 32 (i 0).val) 0#32)) 0#32 = 1#1) ↔ (i 0).val = 0 := by
  decide +kernel

/-- What the body leaves in the accumulator's buffer at grid point `i`, from what the five buffers hold when it
    starts: the tile's sum added to the accumulator, which is first reset to zero at the first point. -/
def bodyOut (i : grid0.Coords) (X0 : S1024x512.Idx → Elt F .f32) (X1 : S512x512.Idx → Elt F .bf16) (X2 : S512x1.Idx → Elt F .i32)
    (X3 X4 : S1x1.Idx → Elt F .f32) : S1x1.Idx → Elt F .f32 :=
  k0_pay1 (BitVec.ofNat 32 (i 0).val) (k0_pay5 X0 X1 X3) (k0_pay6 X0 X1 X3) X2 (if (i 0).val = 0 then k0_pay2 else X4)

/-- The body at the first grid point: the accumulator's buffer is reset to zero, then the tile's sum added to it. -/
theorem sound_first (c : Dev nD) (E : Set ℕ) (i : grid0.Coords) (h0 : (i 0).val = 0) (s0 : Fin 2) (s1 s2 s3 s4 : Fin 1)
    (X0 : S1024x512.Idx → Elt F .f32) (X1 : S512x512.Idx → Elt F .bf16) (X2 : S512x1.Idx → Elt F .i32)
    (X3 X4 : S1x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (k0_pay1 (BitVec.ofNat 32 (i 0).val) (k0_pay5 X0 X1 X3) (k0_pay6 X0 X1 X3) X2 k0_pay2)) -∗ K ⟨⟩))
      ⊢ wp frame (wpE (defs₀ (F := F)) 𝒱₀ c none) E
          (cc0__kernel i (stage0_0 s0) (hstage0_0 s0) (stage0_1 s1) (hstage0_1 s1) (stage0_2 s2) (hstage0_2 s2)
            (stage0_3 s3) (hstage0_3 s3) (stage0_4 s4) (hstage0_4 s4)) K := by
  have hz : (![0, 0] : Fin 2 → Nat) = fun _ => 0 := funext fun a => by fin_cases a <;> rfl
  have hr00 : ∀ f, (Memref.whole cc0_stg0_0 : Memref sig .tc _ _ _).view.readAt (Elt F) (Rect.unit (s := S1024x512) ![0, 0] S1024x512.size
      inb_S1024x512_S1024x512_0_0).toLoadRect f = f := Memref.readAt_unit_zero (Elt F) cc0_stg0_0 hz _
  have hr01 : ∀ f, (Memref.whole cc0_stg0_1 : Memref sig .tc _ _ _).view.readAt (Elt F) (Rect.unit (s := S1024x512) ![0, 0] S1024x512.size
      inb_S1024x512_S1024x512_0_0).toLoadRect f = f := Memref.readAt_unit_zero (Elt F) cc0_stg0_1 hz _
  have hr1 : ∀ f, (Memref.whole cc0_stg1_0 : Memref sig .tc _ _ _).view.readAt (Elt F) (Rect.unit (s := S512x512) ![0, 0] S512x512.size
      inb_S512x512_S512x512_0_0).toLoadRect f = f := Memref.readAt_unit_zero (Elt F) cc0_stg1_0 hz _
  have hr2 : ∀ f, (Memref.whole cc0_stg2_0 : Memref sig .tc _ _ _).view.readAt (Elt F) (Rect.unit (s := S512x1) ![0, 0] S512x1.size
      inb_S512x1_S512x1_0_0).toLoadRect f = f := Memref.readAt_unit_zero (Elt F) cc0_stg2_0 hz _
  have hr3 : ∀ f, (Memref.whole cc0_stg3_0 : Memref sig .tc _ _ _).view.readAt (Elt F) (Rect.unit (s := S1x1) ![0, 0] S1x1.size
      inb_S1x1_S1x1_0_0).toLoadRect f = f := Memref.readAt_unit_zero (Elt F) cc0_stg3_0 hz _
  have hr4 : ∀ f, (Memref.whole cc0_stg4_0 : Memref sig .tc _ _ _).view.readAt (Elt F) (Rect.unit (s := S1x1) ![0, 0] S1x1.size
      inb_S1x1_S1x1_0_0).toLoadRect f = f := Memref.readAt_unit_zero (Elt F) cc0_stg4_0 hz _
  have hw4 : ∀ f w, (((Memref.whole cc0_stg4_0).access (Rect.unit (s := S1x1) ![0, 0] S1x1.size inb_S1x1_S1x1_0_0)) :
      View sig .tc _ _ _).write (Elt F) f w Finset.univ = w := Memref.write_access_unit_zero_univ (Elt F) cc0_stg4_0 hz _
  have hW4 : ∀ f w1 w2, (Memref.whole cc0_stg4_0 : Memref sig .tc _ _ _).view.writes (Elt F) f
      [⟨Rect.unit (s := S1x1) ![0, 0] S1x1.size inb_S1x1_S1x1_0_0, w2⟩, ⟨Rect.unit (s := S1x1) ![0, 0] S1x1.size inb_S1x1_S1x1_0_0, w1⟩] = w2 :=
    fun f w1 w2 => hw4 _ w2
  have hc := (guard_iff i).mpr h0
  fin_cases s0 <;> fin_cases s1 <;> fin_cases s2 <;> fin_cases s3 <;> fin_cases s4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_pos hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hW4, hw4, hr4, hr00, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_pos hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hW4, hw4, hr4, hr01, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4

/-- The body at a later grid point: the tile's sum added to what the accumulator's buffer holds. -/
theorem sound_later (c : Dev nD) (E : Set ℕ) (i : grid0.Coords) (h0 : (i 0).val ≠ 0) (s0 : Fin 2) (s1 s2 s3 s4 : Fin 1)
    (X0 : S1024x512.Idx → Elt F .f32) (X1 : S512x512.Idx → Elt F .bf16) (X2 : S512x1.Idx → Elt F .i32)
    (X3 X4 : S1x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (k0_pay1 (BitVec.ofNat 32 (i 0).val) (k0_pay5 X0 X1 X3) (k0_pay6 X0 X1 X3) X2 X4)) -∗ K ⟨⟩))
      ⊢ wp frame (wpE (defs₀ (F := F)) 𝒱₀ c none) E
          (cc0__kernel i (stage0_0 s0) (hstage0_0 s0) (stage0_1 s1) (hstage0_1 s1) (stage0_2 s2) (hstage0_2 s2)
            (stage0_3 s3) (hstage0_3 s3) (stage0_4 s4) (hstage0_4 s4)) K := by
  have hz : (![0, 0] : Fin 2 → Nat) = fun _ => 0 := funext fun a => by fin_cases a <;> rfl
  have hr00 : ∀ f, (Memref.whole cc0_stg0_0 : Memref sig .tc _ _ _).view.readAt (Elt F) (Rect.unit (s := S1024x512) ![0, 0] S1024x512.size
      inb_S1024x512_S1024x512_0_0).toLoadRect f = f := Memref.readAt_unit_zero (Elt F) cc0_stg0_0 hz _
  have hr01 : ∀ f, (Memref.whole cc0_stg0_1 : Memref sig .tc _ _ _).view.readAt (Elt F) (Rect.unit (s := S1024x512) ![0, 0] S1024x512.size
      inb_S1024x512_S1024x512_0_0).toLoadRect f = f := Memref.readAt_unit_zero (Elt F) cc0_stg0_1 hz _
  have hr1 : ∀ f, (Memref.whole cc0_stg1_0 : Memref sig .tc _ _ _).view.readAt (Elt F) (Rect.unit (s := S512x512) ![0, 0] S512x512.size
      inb_S512x512_S512x512_0_0).toLoadRect f = f := Memref.readAt_unit_zero (Elt F) cc0_stg1_0 hz _
  have hr2 : ∀ f, (Memref.whole cc0_stg2_0 : Memref sig .tc _ _ _).view.readAt (Elt F) (Rect.unit (s := S512x1) ![0, 0] S512x1.size
      inb_S512x1_S512x1_0_0).toLoadRect f = f := Memref.readAt_unit_zero (Elt F) cc0_stg2_0 hz _
  have hr3 : ∀ f, (Memref.whole cc0_stg3_0 : Memref sig .tc _ _ _).view.readAt (Elt F) (Rect.unit (s := S1x1) ![0, 0] S1x1.size
      inb_S1x1_S1x1_0_0).toLoadRect f = f := Memref.readAt_unit_zero (Elt F) cc0_stg3_0 hz _
  have hr4 : ∀ f, (Memref.whole cc0_stg4_0 : Memref sig .tc _ _ _).view.readAt (Elt F) (Rect.unit (s := S1x1) ![0, 0] S1x1.size
      inb_S1x1_S1x1_0_0).toLoadRect f = f := Memref.readAt_unit_zero (Elt F) cc0_stg4_0 hz _
  have hw4 : ∀ f w, (((Memref.whole cc0_stg4_0).access (Rect.unit (s := S1x1) ![0, 0] S1x1.size inb_S1x1_S1x1_0_0)) :
      View sig .tc _ _ _).write (Elt F) f w Finset.univ = w := Memref.write_access_unit_zero_univ (Elt F) cc0_stg4_0 hz _
  have hW4 : ∀ f w1 w2, (Memref.whole cc0_stg4_0 : Memref sig .tc _ _ _).view.writes (Elt F) f
      [⟨Rect.unit (s := S1x1) ![0, 0] S1x1.size inb_S1x1_S1x1_0_0, w2⟩, ⟨Rect.unit (s := S1x1) ![0, 0] S1x1.size inb_S1x1_S1x1_0_0, w1⟩] = w2 :=
    fun f w1 w2 => hw4 _ w2
  have hc : ¬ (Scalar.cmpi .ne (Scalar.extui (Scalar.cmpi .eq (BitVec.ofNat 32 (i 0).val) 0#32)) 0#32 = 1#1) :=
    fun h => h0 ((guard_iff i).mp h)
  fin_cases s0 <;> fin_cases s1 <;> fin_cases s2 <;> fin_cases s3 <;> fin_cases s4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_neg hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hw4, hr4, hr00, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4
  · simp only [owns_whole_eq, cc0__kernel_eq_skeleton]; unfold cc0__kernel_skel
    simp only [k0_part1_eq_skeleton]; unfold k0_part1_skel
    simp only [Prog.lift, Prog.bind_op, Prog.bind_ret, Prog.pure_eq_ret, dif_neg hc]
    iintro ⟨⟨⟨%f0, %hf0, H0⟩, ⟨%f1, %hf1, H1⟩, ⟨%f2, %hf2, H2⟩, ⟨%f3, %hf3, H3⟩, ⟨%f4, %hf4, H4⟩⟩, Hk⟩
    subst hf0 hf1 hf2 hf3 hf4
    sl_steps
    iapply Hk
    rw [hw4, hr4, hr01, hr1, hr2, hr3]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    · iexists _; isplitr; · ipureintro; rfl
      iexact H4

/-- The kernel body on whichever staging buffers the point uses: the five buffers whole, the four inputs' left as
    they were, the accumulator's left at `bodyOut`. -/
theorem sound_body (c : Dev nD) (E : Set ℕ) (i : grid0.Coords)  (s0 : Fin 2) (s1 s2 s3 s4 : Fin 1)
    (X0 : S1024x512.Idx → Elt F .f32) (X1 : S512x512.Idx → Elt F .bf16) (X2 : S512x1.Idx → Elt F .i32)
    (X3 X4 : S1x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare (bodyOut i X0 X1 X2 X3 X4)) -∗ K ⟨⟩))
      ⊢ wp frame (wpE (defs₀ (F := F)) 𝒱₀ c none) E
          (cc0__kernel i (stage0_0 s0) (hstage0_0 s0) (stage0_1 s1) (hstage0_1 s1) (stage0_2 s2) (hstage0_2 s2)
            (stage0_3 s3) (hstage0_3 s3) (stage0_4 s4) (hstage0_4 s4)) K := by
  by_cases h0 : (i 0).val = 0
  · have hout : bodyOut i X0 X1 X2 X3 X4 = k0_pay1 (BitVec.ofNat 32 (i 0).val) (k0_pay5 X0 X1 X3) (k0_pay6 X0 X1 X3) X2 k0_pay2 := by
      unfold bodyOut; rw [if_pos h0]
    rw [hout]; exact sound_first c E i h0 s0 s1 s2 s3 s4 X0 X1 X2 X3 X4 K
  · have hout : bodyOut i X0 X1 X2 X3 X4 = k0_pay1 (BitVec.ofNat 32 (i 0).val) (k0_pay5 X0 X1 X3) (k0_pay6 X0 X1 X3) X2 X4 := by
      unfold bodyOut; rw [if_neg h0]
    rw [hout]; exact sound_later c E i h0 s0 s1 s2 s3 s4 X0 X1 X2 X3 X4 K

end Cert.KernelIdeal.Hand

end
-- ==== Proof.Spec.lean ====
/-
  The function both programs compute, on the extended reals.

  Rows of a matrix are scaled to unit length, the length floored at a small positive constant; the cosine of a
  row of the batch and a row of the class table is the sum over the 512 features of the products of the two unit
  rows. Each (batch row, class) pair contributes a softplus loss of the clipped, scaled cosine less the bias —
  with a margin subtracted from the cosine and the sign turned when the class is the row's label —; the result is
  the sum of all 512 × 100000 contributions divided by 512.

  The kernel reaches the same sum tile by tile: 98 tiles of 1024 classes, the 352 classes past the table's end
  contributing zero. `tileSum` is one tile's contribution as a function of the 1024 table rows the tile holds.
-/
import Idealize.ShloMosaic.PureOps.Ideal
import Idealize.ShloMosaic.Lib.ValueIdx

noncomputable section

namespace Cert.MarginLoss

open Idealize.ShloMosaic Idealize.ShloMosaic.ValueIdx
open scoped BigOperators

/-- A matrix of extended reals, indexed as the programs index their rank-2 arrays. -/
abbrev Mat (a b : Nat) : Type := (⟨2, ![a, b]⟩ : Shape).Idx → EReal

/-- The floor under a row's length, the margin, the scale and its negative, and the batch size: the binary values of
    the words both programs print (never evaluated: the same word stands on both sides). -/
def eps : EReal := Ideal.ofBits .f32 0x3727C5AC#32
def margin : EReal := Ideal.ofBits .f32 0x3ECCCCCD#32
def scale : EReal := Ideal.ofBits .f32 0x42800000#32
def negScale : EReal := Ideal.ofBits .f32 0xC2800000#32
def batch : EReal := Ideal.ofBits .f32 0x44000000#32

/-- The length of row `i`, floored at `eps`. -/
def len {a : Nat} (M : Mat a 512) (i : Fin a) : EReal :=
  max (Ideal.sqrt (∑ d : Fin 512, M (ix2 i d) * M (ix2 i d))) eps

/-- Entry `d` of row `i` scaled to unit length. -/
def unit {a : Nat} (M : Mat a 512) (i : Fin a) (d : Fin 512) : EReal := Ideal.div (M (ix2 i d)) (len M i)

/-- Every row scaled to unit length. -/
def normalize {a : Nat} (M : Mat a 512) : Mat a 512 := fun i => unit M (i 0) (i 1)

/-- The cosine of row `b` of an already normalized batch and row `k` of a table. -/
def cosineN {a : Nat} (xn : Mat 512 512) (W : Mat a 512) (b : Fin 512) (k : Fin a) : EReal :=
  ∑ d : Fin 512, xn (ix2 b d) * unit W k d

/-- A value clipped to `[-scale, scale]`. -/
def clip (z : EReal) : EReal := min scale (max negScale z)

/-- The loss of the label's class, and of any other class, at cosine `c`. -/
def posLoss (bias c : EReal) : EReal := Ideal.log1p (Ideal.exp (-(clip (scale * (c - margin) - bias))))
def negLoss (bias c : EReal) : EReal := Ideal.log1p (Ideal.exp (clip (scale * c - bias)))

/-- The contribution of batch row `b` and class `c`. -/
def lossAt (x : Mat 512 512) (w : Mat 100000 512) (lab : Fin 512 → BitVec 32) (bias : EReal) (b : Fin 512) (c : Fin 100000) : EReal :=
  if lab b = BitVec.ofNat 32 c.val then posLoss bias (cosineN (normalize x) w b c) else negLoss bias (cosineN (normalize x) w b c)

/-- The sum of all contributions, and the result: that sum over the batch size. -/
def total (x : Mat 512 512) (w : Mat 100000 512) (lab : Fin 512 → BitVec 32) (bias : EReal) : EReal :=
  ∑ b : Fin 512, ∑ c : Fin 100000, lossAt x w lab bias b c
def mean (x : Mat 512 512) (w : Mat 100000 512) (lab : Fin 512 → BitVec 32) (bias : EReal) : EReal :=
  Ideal.div (total x w lab bias) batch

/-- Tile `t` holds classes `1024 t … 1024 t + 1023` as the rows of `W`: the contribution of batch row `b` and the
    tile's row `k`, zero for a class past the table's end. -/
def tileLoss (xn : Mat 512 512) (W : Mat 1024 512) (lab : Fin 512 → BitVec 32) (bias : EReal) (t : Nat) (b : Fin 512) (k : Fin 1024) : EReal :=
  if 1024 * t + k.val < 100000 then
    (if lab b = BitVec.ofNat 32 (1024 * t + k.val) then posLoss bias (cosineN xn W b k) else negLoss bias (cosineN xn W b k))
  else 0

/-- One tile's contribution to the sum. -/
def tileSum (xn : Mat 512 512) (W : Mat 1024 512) (lab : Fin 512 → BitVec 32) (bias : EReal) (t : Nat) : EReal :=
  ∑ b : Fin 512, ∑ k : Fin 1024, tileLoss xn W lab bias t b k

end Cert.MarginLoss

end
-- ==== Proof.KData.lean ====
/-
  The idealized kernel's proof data. The grid has 98 points; at point `t` the table's staging buffer holds tile `t`:
  rows `1024 t … 1024 t + 1023` of the class table where those lie inside it (all of them but at the last point,
  where only 672 do), and words nothing names past its end. The batch, the labels and the bias are fetched once and
  stay. The one-element output is the running sum: what the body leaves there at point `t` is its result on the
  point's blocks and on what it left at point `t - 1`; only the last point writes it back.
-/
import proofs.«112446_j19344532701365_1_alg».proof.Proof.Gen.KernelIdeal.Frame
import proofs.«112446_j19344532701365_1_alg».proof.Proof.BodyI
import proofs.«112446_j19344532701365_1_alg».proof.Proof.Spec
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The grid has one axis: a point's coordinate is the point. -/
theorem coords_val : ∀ t : Fin cfg0.N, (grid0.coords t 0).val = t.val :=
  (by decide +kernel : ∀ t : Fin grid0.N, (grid0.coords t 0).val = t.val)

/-- How much of tile `t` lies inside the table: all 1024 rows, or what is left of the 100000 (the columns all 512). -/
theorem xsize_tile : ∀ t : Fin cfg0.N, win0_0.xsize (grid0.coords t) 0 = min 1024 (100000 - 1024 * t.val)
    ∧ win0_0.xsize (grid0.coords t) 1 = 512 :=
  (by decide +kernel : ∀ t : Fin grid0.N, win0_0.xsize (grid0.coords t) 0 = min 1024 (100000 - 1024 * t.val)
    ∧ win0_0.xsize (grid0.coords t) 1 = 512)

/-- A row of tile `t` whose class lies inside the table is one the fetch moves. -/
theorem moved_of_lt (t : Fin cfg0.N) (j : S1024x512.Idx) (h : 1024 * t.val + (j 0).val < 100000) :
    win0_0.moved (grid0.coords t) j = true := by
  rw [Window.moved_iff]
  intro a
  have h0 := (j 0).isLt; have h1 := (j 1).isLt
  match a with
  | ⟨0, _⟩ =>
    show (j 0).val < win0_0.xsize (grid0.coords t) 0
    rw [(xsize_tile t).1]
    have h0' : (j 0).val < 1024 := h0
    omega
  | ⟨1, _⟩ =>
    show (j 1).val < win0_0.xsize (grid0.coords t) 1
    rw [(xsize_tile t).2]; exact h1

/-- The tile of the table the staging buffer holds at point `t`: the block's rows inside the table, zero past its end. -/
def wBlk (c : Dev nD) (t : Fin cfg0.N) : S1024x512.Idx → Elt Ideal .f32 :=
  win0_0.fill (grid0.coords t) (fun _ => (0 : EReal)) (iblk m c 0 t)

/-- What the output's buffer holds after the body at point `n`: the body's result on the point's blocks and on what
    the point before left (at point 0 on the zero the body first stores). -/
def accN (c : Dev nD) : (n : ℕ) → n < cfg0.N → S1x1.Idx → Elt Ideal .f32
  | 0, h => bodyOut (grid0.coords ⟨0, h⟩) (wBlk m c ⟨0, h⟩) (iblk m c 1 ⟨0, h⟩) (iblk m c 2 ⟨0, h⟩) (iblk m c 3 ⟨0, h⟩) (fun _ => (0 : EReal))
  | n + 1, h => bodyOut (grid0.coords ⟨n + 1, h⟩) (wBlk m c ⟨n + 1, h⟩) (iblk m c 1 ⟨n + 1, h⟩) (iblk m c 2 ⟨n + 1, h⟩) (iblk m c 3 ⟨n + 1, h⟩)
      (accN c n (Nat.lt_of_succ_lt h))

/-- The proof data on core `c`: the arrays as the region finds them; after the body the table's buffer at the tile
    (zero past the table's end), the three resident inputs at their blocks, the output at the running result. -/
def dats (_ : Fin 1) (c : Dev nD) : Dat τ (Elt Ideal) Unit ℕ (UR sig nD τ) ℕ cfg0 c where
  A w := V m c (Pipeline.arrRef spec0 w)
  after w t := match w with
    | ⟨0, _⟩ => wBlk m c t
    | ⟨1, _⟩ => iblk m c 1 t
    | ⟨2, _⟩ => iblk m c 2 t
    | ⟨3, _⟩ => iblk m c 3 t
    | ⟨4, _⟩ => accN m c t.val t.isLt
  Φ _ := Pipeline.ΦA spec0 c
  q _ := fullShare
  owed _ := 0

/-- The table's buffer is fetched at every point: the block inside the table, `d` past its end. -/
theorem before_0 (c : Dev nD) (t : Fin cfg0.N) (d) :
    (dats m 0 c).before (0 : Fin 5) t d = win0_0.fill (grid0.coords t) d (iblk m c 0 t) := by
  rw [Dat.before_fetched _ _ _ (fetch0_0 t)]; rfl

/-- The three resident inputs hold their blocks at every point. -/
theorem before_1 (c : Dev nD) (t : Fin cfg0.N) (d) : (dats m 0 c).before (1 : Fin 5) t d = iblk m c 1 t :=
  before0_1_of m (dats m 0 c) rfl (fun _ => rfl) t d
theorem before_2 (c : Dev nD) (t : Fin cfg0.N) (d) : (dats m 0 c).before (2 : Fin 5) t d = iblk m c 2 t :=
  before0_2_of m (dats m 0 c) rfl (fun _ => rfl) t d
theorem before_3 (c : Dev nD) (t : Fin cfg0.N) (d) : (dats m 0 c).before (3 : Fin 5) t d = iblk m c 3 t :=
  before0_3_of m (dats m 0 c) rfl (fun _ => rfl) t d

/-- The output's buffer at the first point holds anything; -/
theorem before_4_zero (c : Dev nD) (t : Fin cfg0.N) (ht : t.val = 0) (d) : (dats m 0 c).before (4 : Fin 5) t d = d :=
  Dat.before_out_reset _ (4 : Fin 5) rfl t (.inl ht) d

/-- at a later point what the body left at the point before (no point but the last writes it back). -/
theorem before_4_succ (c : Dev nD) (t : Fin cfg0.N) (ht : t.val ≠ 0) (d) :
    (dats m 0 c).before (4 : Fin 5) t d = accN m c (t.val - 1) (Nat.lt_of_le_of_lt (Nat.sub_le _ _) t.isLt) := by
  rw [Dat.before_out_kept _ (4 : Fin 5) rfl t ht ?_ (fun _ => rfl) (fun _ _ => rfl) d]
  · rfl
  · have h := flush0_4 ⟨t.val - 1, Nat.lt_of_le_of_lt (Nat.sub_le _ _) t.isLt⟩
    have hN : t.val < 98 := t.isLt
    cases hf : (cfg0.win 4).flush ⟨t.val - 1, Nat.lt_of_le_of_lt (Nat.sub_le _ _) t.isLt⟩
    · rfl
    · exfalso; have := h.mp hf; simp only at this; omega

end Cert.KernelIdeal.Hand

end
-- ==== Proof.LibTileSum.lean ====
/-
  A sum over an initial segment of the naturals, cut into tiles of equal size.

  If the tiles `0 … n - 1`, each holding the `s` consecutive indices `s t … s t + s - 1`, cover `0 … N - 1`
  (`N ≤ s * n`), then summing a function over `Fin N` is the same as summing it tile by tile, every index of a
  tile that falls past `N` contributing zero. Only commutativity and associativity of the addition are used: the
  values live in any additive commutative monoid, so nothing need be finite and nothing is ever subtracted.

  Also here: a sequence that starts at zero plus the first term and adds one further term at every step is the
  sequence of partial sums.
-/
import Mathlib.Algebra.BigOperators.Fin

namespace Cert.TileSum

open scoped BigOperators

/-- Summing `g` over the first `n` tiles of size `s`, tile by tile, is summing it over `0 … s * n - 1`:
    tile `n` is appended to the first `n` tiles (induction on the number of tiles). -/
theorem sum_tiles_range {M : Type*} [AddCommMonoid M] (g : ℕ → M) (s n : ℕ) :
    ∑ t ∈ Finset.range n, ∑ k : Fin s, g (s * t + k.val) = ∑ i ∈ Finset.range (s * n), g i := by
  induction n with
  | zero => simp
  | succ n ih =>
    rw [Finset.sum_range_succ, ih, Nat.mul_succ, Finset.sum_range_add]
    congr 1
    exact (Finset.sum_range (fun k => g (s * n + k))).symm

/-- A function on `Fin N` continued by zero past `N`. -/
def extendZero {M : Type*} [Zero M] {N : ℕ} (f : Fin N → M) (i : ℕ) : M :=
  if h : i < N then f ⟨i, h⟩ else 0

/-- The sum of the continuation over `0 … m - 1` is the sum of the function, as soon as `N ≤ m`: the added
    terms are zero. -/
theorem sum_extendZero {M : Type*} [AddCommMonoid M] {N : ℕ} (f : Fin N → M) (m : ℕ) (hN : N ≤ m) :
    ∑ i ∈ Finset.range m, extendZero f i = ∑ c : Fin N, f c := by
  rw [← Finset.sum_subset (Finset.range_mono hN) (f := extendZero f)]
  · rw [Finset.sum_range]
    exact Finset.sum_congr rfl fun c _ => dif_pos c.isLt
  · intro i _ hi
    exact dif_neg (by simpa [Finset.mem_range] using hi)

/-- `n` tiles of size `s` that cover `0 … N - 1`: the masked tile-by-tile sum is the sum over `Fin N`. -/
theorem sum_tiles_masked {M : Type*} [AddCommMonoid M] {N : ℕ} (f : Fin N → M) (s n : ℕ) (hN : N ≤ s * n) :
    ∑ t ∈ Finset.range n, ∑ k : Fin s, (if h : s * t + k.val < N then f ⟨s * t + k.val, h⟩ else 0)
      = ∑ c : Fin N, f c :=
  (sum_tiles_range (extendZero f) s n).trans (sum_extendZero f (s * n) hN)

/-- A running total: if `acc 0` is zero plus the first term and every later `acc (n + 1)`, up to index `N - 1`, adds
    term `n + 1` to `acc n`, then `acc n` is the sum of the terms `0 … n` (induction on `n`). -/
theorem acc_eq_sum_range {M : Type*} [AddCommMonoid M] (T : ℕ → M) (N : ℕ) (acc : ℕ → M)
    (h0 : acc 0 = 0 + T 0) (hs : ∀ n, n + 1 < N → acc (n + 1) = acc n + T (n + 1)) :
    ∀ n, n < N → acc n = ∑ t ∈ Finset.range (n + 1), T t := by
  intro n
  induction n with
  | zero => intro _; rw [h0, zero_add, Finset.sum_range_one]
  | succ n ih =>
    intro hn
    rw [hs n hn, ih (Nat.lt_of_succ_lt hn)]
    exact (Finset.sum_range_succ T (n + 1)).symm

end Cert.TileSum
-- ==== Proof.Bridge.lean ====
/-
  The sum of all contributions, regrouped tile by tile.

  The 100000 classes are cut into 98 tiles of 1024 consecutive classes; the last tile reaches 352 classes past the
  table's end, and those contribute zero. Two facts are proved here over the specification alone:

  * a tile's contribution reads only those of its 1024 rows that lie inside the table (`tileSum_congr`): a
    contribution past the table's end is zero whatever the row holds, and the cosine of a batch row and row `k` of
    the tile reads the tile at row `k` only — through the row's length and its unit vector;
  * the 98 tiles' contributions add up to the sum of all contributions (`sum_tiles`), as soon as tile `t` holds the
    table's rows `1024 t … 1024 t + 1023` wherever these exist: the sum over tiles and the sum over batch rows are
    exchanged, and for a fixed batch row the masked tile-by-tile sum over classes is the sum over all classes.

  Last, the accumulator that adds one tile's contribution per step holds the sum of all contributions after the
  last tile, so that dividing it by the batch size gives the mean (`acc_mean`).

  Addition on the extended reals is commutative and associative, and that is all that is used: no value need be
  finite, nothing is subtracted and nothing is distributed.
-/
import proofs.«112446_j19344532701365_1_alg».proof.Proof.Spec
import proofs.«112446_j19344532701365_1_alg».proof.Proof.LibTileSum

noncomputable section

namespace Cert.MarginLoss

open Idealize.ShloMosaic Idealize.ShloMosaic.ValueIdx
open scoped BigOperators

/-- The cosine of batch row `b` and a table's row reads the table at that row only: if row `k` of `W` and row `k'`
    of `W'` (two tables of any heights) hold the same 512 entries, the cosines agree. -/
theorem cosineN_congr {a a' : Nat} (xn : Mat 512 512) (W : Mat a 512) (W' : Mat a' 512) (b : Fin 512)
    (k : Fin a) (k' : Fin a') (h : ∀ d : Fin 512, W (ix2 k d) = W' (ix2 k' d)) :
    cosineN xn W b k = cosineN xn W' b k' := by
  unfold cosineN unit len
  simp only [h]

/-- One (batch row, tile row) contribution depends only on the tile's rows inside the table. -/
theorem tileLoss_congr (xn : Mat 512 512) (W W' : Mat 1024 512) (lab : Fin 512 → BitVec 32) (bias : EReal) (t : Nat)
    (h : ∀ (k : Fin 1024) (d : Fin 512), 1024 * t + k.val < 100000 → W (ix2 k d) = W' (ix2 k d))
    (b : Fin 512) (k : Fin 1024) :
    tileLoss xn W lab bias t b k = tileLoss xn W' lab bias t b k := by
  unfold tileLoss
  by_cases hk : 1024 * t + k.val < 100000
  · rw [if_pos hk, if_pos hk, cosineN_congr xn W W' b k k (fun d => h k d hk)]
  · rw [if_neg hk, if_neg hk]

/-- A tile's contribution depends only on the tile's rows inside the table. -/
theorem tileSum_congr (xn : Mat 512 512) (W W' : Mat 1024 512) (lab : Fin 512 → BitVec 32) (bias : EReal) (t : Nat)
    (h : ∀ (k : Fin 1024) (d : Fin 512), 1024 * t + k.val < 100000 → W (ix2 k d) = W' (ix2 k d)) :
    tileSum xn W lab bias t = tileSum xn W' lab bias t := by
  unfold tileSum
  exact Finset.sum_congr rfl fun b _ => Finset.sum_congr rfl fun k _ => tileLoss_congr xn W W' lab bias t h b k

/-- When tile `t` holds the table's rows `1024 t + k` (wherever such a row exists), the contribution of batch row `b`
    and the tile's row `k` is the contribution of batch row `b` and class `1024 t + k`, and zero past the table's end. -/
theorem tileLoss_eq_lossAt (x : Mat 512 512) (w : Mat 100000 512) (lab : Fin 512 → BitVec 32) (bias : EReal)
    (W : Mat 1024 512) (t : Nat)
    (hW : ∀ (k : Fin 1024) (d : Fin 512) (h : 1024 * t + k.val < 100000), W (ix2 k d) = w (ix2 ⟨1024 * t + k.val, h⟩ d))
    (b : Fin 512) (k : Fin 1024) :
    tileLoss (normalize x) W lab bias t b k
      = if h : 1024 * t + k.val < 100000 then lossAt x w lab bias b ⟨1024 * t + k.val, h⟩ else 0 := by
  unfold tileLoss
  by_cases hk : 1024 * t + k.val < 100000
  · rw [if_pos hk, dif_pos hk]
    unfold lossAt
    rw [cosineN_congr (normalize x) W w b k ⟨1024 * t + k.val, hk⟩ (fun d => hW k d hk)]
  · rw [if_neg hk, dif_neg hk]

/-- The 98 tiles' contributions add up to the sum of all 512 × 100000 contributions. -/
theorem sum_tiles (x : Mat 512 512) (w : Mat 100000 512) (lab : Fin 512 → BitVec 32) (bias : EReal) (Wt : Nat → Mat 1024 512)
    (hW : ∀ (t : Nat) (k : Fin 1024) (d : Fin 512) (h : 1024 * t + k.val < 100000),
      Wt t (ix2 k d) = w (ix2 ⟨1024 * t + k.val, h⟩ d)) :
    ∑ t ∈ Finset.range 98, tileSum (normalize x) (Wt t) lab bias t = total x w lab bias := by
  unfold total tileSum
  -- the sum over tiles goes inside the sum over batch rows
  rw [Finset.sum_comm]
  refine Finset.sum_congr rfl fun b _ => ?_
  -- for one batch row: each tile entry is a class's contribution or zero, and the masked tiles cover the classes
  refine (Finset.sum_congr rfl fun t _ => Finset.sum_congr rfl fun k _ =>
    tileLoss_eq_lossAt x w lab bias (Wt t) t (hW t) b k).trans ?_
  exact Cert.TileSum.sum_tiles_masked (fun c => lossAt x w lab bias b c) 1024 98 (by norm_num)

/-- The accumulator as a sequence: it starts at zero plus tile 0's contribution and adds tile `n + 1`'s contribution
    at step `n + 1`; after the last of the 98 tiles it holds the sum of all contributions, and dividing it by the
    batch size gives the mean. -/
theorem acc_mean (x : Mat 512 512) (w : Mat 100000 512) (lab : Fin 512 → BitVec 32) (bias : EReal) (Wt : Nat → Mat 1024 512)
    (hW : ∀ (t : Nat) (k : Fin 1024) (d : Fin 512) (h : 1024 * t + k.val < 100000),
      Wt t (ix2 k d) = w (ix2 ⟨1024 * t + k.val, h⟩ d))
    (acc : Nat → EReal)
    (h0 : acc 0 = 0 + tileSum (normalize x) (Wt 0) lab bias 0)
    (hs : ∀ n, n + 1 < 98 → acc (n + 1) = acc n + tileSum (normalize x) (Wt (n + 1)) lab bias (n + 1)) :
    Ideal.div (acc 97) batch = mean x w lab bias := by
  -- the accumulator after tile 97 is the sum of the 98 tiles' contributions
  have hacc : acc 97 = ∑ t ∈ Finset.range 98, tileSum (normalize x) (Wt t) lab bias t :=
    Cert.TileSum.acc_eq_sum_range (fun t => tileSum (normalize x) (Wt t) lab bias t) 98 acc h0 hs 97 (by norm_num)
  unfold mean
  rw [hacc, sum_tiles x w lab bias Wt hW]

end Cert.MarginLoss

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibTransposedDot.lean ====
/-
  A matrix product whose right operand is contracted on its LAST axis, read at an entry, at the ideal instance.

  For dimension numbers that contract the left operand's columns with the right operand's columns and have no batch
  axis (`DotDims.transposedRhs m k n`: `l rᵀ` without a materialised transpose), the kernel's product into a zero
  accumulator is, at entry `(p, j)`, the sum over `q < k` of `l (p, q) · r (j, q)` on the extended reals. Stated for
  any record equal to that one, so that each printed record (a `def` of its own) can be cited by `rfl`.
-/
import Idealize.ShloMosaic.Lib.ValueIdx
import Idealize.ShloMosaic.PureOps.Ideal.Laws

noncomputable section

namespace Cert.TransposedDot

open Idealize.ShloMosaic Idealize.ShloMosaic.ValueIdx

variable {m k n : Nat} {φ₁ φ₂ : FTy}

/-- The sum over the one contraction axis, re-indexed by `Fin k`, with the operand indices at an output entry
    `(p, j)` written by coordinates: row `p` of the left operand against row `j` of the right. -/
theorem sum_transposed (l : (⟨2, ![m, k]⟩ : Shape).Idx → EReal) (r : (⟨2, ![n, k]⟩ : Shape).Idx → EReal) (p : Fin m) (j : Fin n) :
    (∑ q : (DotDims.transposedRhs m k n).contr.Idx,
        l ((DotDims.transposedRhs m k n).lhsIdx (ix2 p j) q) * r ((DotDims.transposedRhs m k n).rhsIdx (ix2 p j) q))
      = ∑ q : Fin k, l (ix2 p q) * r (ix2 j q) := by
  rw [← Equiv.sum_comp (contrEquiv1 (DotDims.transposedRhs m k n) k rfl rfl).symm]
  refine Finset.sum_congr rfl fun q _ => ?_
  have hq := contrEquiv1_symm_val (DotDims.transposedRhs m k n) k rfl rfl q
  have el : (DotDims.transposedRhs m k n).lhsIdx (ix2 p j) ((contrEquiv1 (DotDims.transposedRhs m k n) k rfl rfl).symm q) = ix2 p q :=
    funext fun a => Fin.ext (by
      match a with
      | ⟨0, _⟩ => rfl
      | ⟨1, _⟩ => exact ((DotDims.transposedRhs m k n).lhsIdx_val_of_single rfl _ _).trans hq)
  have er : (DotDims.transposedRhs m k n).rhsIdx (ix2 p j) ((contrEquiv1 (DotDims.transposedRhs m k n) k rfl rfl).symm q) = ix2 j q :=
    funext fun a => Fin.ext (by
      match a with
      | ⟨0, _⟩ => rfl
      | ⟨1, _⟩ => exact ((DotDims.transposedRhs m k n).rhsIdx_val_of_single rfl _ _).trans hq)
  rw [el, er]

/-- The kernel's product into the zero splat, at entry `(p, j)`. -/
theorem matmul_zero_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    matmul D prec l r (constant (F := Ideal) ⟨2, ![m, n]⟩ .f32 0x00000000#32) (ix2 p j) = ∑ q : Fin k, l (ix2 p q) * r (ix2 j q) := by
  subst hD
  simp only [matmul]
  rw [Ideal.matmul_constant_zero_apply]
  exact sum_transposed l r p j

end Cert.TransposedDot

end
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.TileValue.lean ====
/-
  One tile's payload at the ideal values.

  A tile holds 1024 rows of the class table. Each row is scaled to unit length (the length floored at a small
  positive constant); entry (b, k) of the product of the batch with the transposed tile is then the cosine of batch
  row b and tile row k: the sum over the 512 features of the products. The loss argument is that cosine scaled,
  shifted by the bias and clipped; the label's class takes the margin form with the sign turned, any other class
  the plain form; a class whose number 1024 t + k lies past the table's end contributes zero. The two lane sums
  add all 512 × 1024 contributions, and the result is added to the accumulator's one entry.
-/
import proofs.«112446_j19344532701365_1_alg».proof.Proof.Gen.KernelIdeal.Skeleton
import proofs.«112446_j19344532701365_1_alg».proof.Proof.Spec
import proofs.«112446_j19344532701365_1_alg».proof.Proof.LibKeepdims
import proofs.«112446_j19344532701365_1_alg».proof.Proof.LibTransposedDot
import proofs.«112446_j19344532701365_1_alg».proof.Proof.LibRank3
import Idealize.ShloMosaic.PureOps.Ideal.Laws
import Idealize.ShloMosaic.Lib.ValueIdx
import Idealize.ShloMosaic.Lib.Pipeline.Value
import Idealize.ShloMosaic.Lib.ValueLayout

noncomputable section

namespace Cert.TileValue

open Idealize.ShloMosaic Idealize.ShloMosaic.ValueIdx
open Cert.KernelIdeal Cert.KernelIdeal.Gen Cert.MarginLoss
open scoped BigOperators

/-! ## Indices and words -/

/-- The accumulator's shape has one index. -/
theorem idx_one (j : S1x1.Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

/-- The class number of lane k of tile t: the tile's first class plus the lane, as 32-bit words. -/
theorem classWord (t k : Nat) : BitVec.ofNat 32 t * 1024#32 + BitVec.ofNat 32 (0 * 1024 + k) = BitVec.ofNat 32 (1024 * t + k) := by
  rw [Nat.zero_mul, Nat.zero_add, BitVec.ofNat_add, BitVec.ofNat_mul, BitVec.mul_comm]

/-- Below 2^31 the signed comparison of a class number with the table's height is the comparison of naturals. -/
theorem slt_iff (n : Nat) (hn : n < 2147483648) : IntOp.cmpi .slt (BitVec.ofNat 32 n) 100000#32 = 1#1 ↔ n < 100000 := by
  show BitVec.ofBool ((BitVec.ofNat 32 n).slt 100000#32) = 1#1 ↔ n < 100000
  have e : (BitVec.ofNat 32 n).toInt = (n : Int) := by
    rw [BitVec.toInt_eq_toNat_cond, BitVec.toNat_ofNat]
    have : n % 2 ^ 32 = n := Nat.mod_eq_of_lt (by omega)
    rw [this, if_pos (by omega)]
  have e' : (100000#32 : BitVec 32).toInt = (100000 : Int) := by decide
  rw [BitVec.slt, e, e']
  by_cases h : n < 100000
  · have : decide ((n : Int) < 100000) = true := decide_eq_true (by omega)
    rw [this]; exact ⟨fun _ => h, fun _ => rfl⟩
  · have : decide ((n : Int) < 100000) = false := decide_eq_false (by omega)
    rw [this]; exact ⟨fun h' => absurd h' (by decide), fun h' => absurd h' h⟩

/-- Equality of words as a one-bit word. -/
theorem eq_iff (x y : BitVec 32) : IntOp.cmpi .eq x y = 1#1 ↔ y = x := by
  show BitVec.ofBool (x == y) = 1#1 ↔ y = x
  by_cases h : x = y
  · have : (x == y) = true := beq_iff_eq.mpr h
    rw [this]; exact ⟨fun _ => h.symm, fun _ => rfl⟩
  · have : (x == y) = false := beq_eq_false_iff_ne.mpr h
    rw [this]; exact ⟨fun h' => absurd h' (by decide), fun h' => absurd h'.symm h⟩

/-- A select on a bit that decides p is the if on p. -/
theorem select_of_iff {α : Type} (c : BitVec 1) (p : Prop) [Decidable p] (h : c = 1 ↔ p) (a b : α) :
    Scalar.select c a b = if p then a else b := by
  unfold Scalar.select
  by_cases hp : p
  · rw [if_pos (h.mpr hp), if_pos hp]
  · rw [if_neg (fun hc => hp (h.mp hc)), if_neg hp]

/-- The two selects of one contribution: zero past the table's end, else the label's form or the other. -/
theorem lossSelect (n : Nat) (hn : n < 2147483648) (lab : BitVec 32) (P N : EReal) :
    Scalar.select (IntOp.cmpi .slt (BitVec.ofNat 32 n) 100000#32)
        (Scalar.select (IntOp.cmpi .eq (BitVec.ofNat 32 n) lab) P N) (Ideal.ofBits .f32 0x00000000#32)
      = if n < 100000 then (if lab = BitVec.ofNat 32 n then P else N) else 0 := by
  rw [select_of_iff _ _ (slt_iff n hn), select_of_iff _ _ (eq_iff _ _), Ideal.ofBits_zero_f32]

/-! ## A row's length and the cosine -/

/-- The length of row k of the tile as the kernel computes it — the root of the row's sum of squares, floored —
    read back along the row. -/
theorem rowLen_apply (W : FVec Ideal S1024x512 .f32)
    (hred : S1024x512.Reduces [1] S1024) (hφ : FKind.Formats .f32) (hacc : (0x00000000#32 : BitVec 32) = FKind.add.neutral .f32 hφ)
    (hsc : S1024.ShapeCasts S1024x1) (hbc : S1024x1.Broadcasts S1024x512) (k : Fin 1024) (q : Fin 512) :
    broadcastTo S1024x512
        (maximumf (sqrt (shapeCast S1024x1 (multiReduction .add [1] S1024 (mulf W W) 0x00000000#32 hred hφ hacc) hsc))
          (broadcast S1024x1 (Scalar.ofBits (F := Ideal) .f32 0x3727C5AC#32))) hbc (ix2 k q)
      = len W k := by
  refine (Cert.LibKeepdims.broadcastTo_a1_ab_apply _ hbc k q).trans ?_
  show max (Ideal.sqrt (shapeCast S1024x1 _ hsc (ix2 k (0 : Fin 1)))) (Ideal.ofBits .f32 0x3727C5AC#32) = len W k
  rw [Cert.LibKeepdims.shapeCast_a_a1_apply _ hsc k 0, Cert.LibRank3.sum_last2 (mulf W W) _ hred hφ hacc k]
  rfl

/-- Entry (b, k) of the product of the batch with the transposed, row-normalized tile is the cosine. -/
theorem pay3_apply (X0 : Vec Ideal S1024x512 .f32) (X1 : Vec Ideal S512x512 .bf16) (b : Fin 512) (k : Fin 1024) :
    k0_pay3 (F := Ideal) X0 X1 (ix2 b k) = cosineN X1 X0 b k := by
  unfold k0_pay3
  refine (Cert.TransposedDot.matmul_zero_ix2 (m := 512) (k := 512) (n := 1024)
    dot_S512x512_S1024x512_S512x1024_1_1_0_0_n_n rfl none _ _ b k).trans ?_
  refine Finset.sum_congr rfl fun q _ => ?_
  show shapeCast S512x512 X1 _ (ix2 b q) * Ideal.div (X0 (ix2 k q)) (broadcastTo S1024x512 _ _ (ix2 k q)) = X1 (ix2 b q) * unit X0 k q
  rw [shapeCast_self]
  exact congrArg (fun z => X1 (ix2 b q) * Ideal.div (X0 (ix2 k q)) z) (rowLen_apply X0 _ _ _ _ _ k q)

/-- The bias is the one entry of its array. -/
theorem pay4_eq (X3 : Vec Ideal S1x1 .f32) : k0_pay4 (F := Ideal) X3 = X3 (ix2 0 0) := by
  unfold k0_pay4 extractAt
  exact congrArg X3 (funext fun a => Fin.ext (by match a with | ⟨0, _⟩ => rfl | ⟨1, _⟩ => rfl))

/-- The clipped argument of any class but the label's. -/
theorem pay5_apply (X0 : Vec Ideal S1024x512 .f32) (X1 : Vec Ideal S512x512 .bf16) (X3 : Vec Ideal S1x1 .f32) (b : Fin 512) (k : Fin 1024) :
    k0_pay5 (F := Ideal) X0 X1 X3 (ix2 b k) = clip (scale * cosineN X1 X0 b k - X3 (ix2 0 0)) := by
  unfold k0_pay5
  show min (Ideal.ofBits .f32 0x42800000#32) (max (Ideal.ofBits .f32 0xC2800000#32)
    (Ideal.ofBits .f32 0x42800000#32 * k0_pay3 X0 X1 (ix2 b k) - k0_pay4 X3)) = _
  rw [pay3_apply, pay4_eq]
  rfl

/-- The exponential of the negated clipped argument of the label's class. -/
theorem pay6_apply (X0 : Vec Ideal S1024x512 .f32) (X1 : Vec Ideal S512x512 .bf16) (X3 : Vec Ideal S1x1 .f32) (b : Fin 512) (k : Fin 1024) :
    k0_pay6 (F := Ideal) X0 X1 X3 (ix2 b k)
      = Ideal.exp (-(clip (scale * (cosineN X1 X0 b k - margin) - X3 (ix2 0 0)))) := by
  unfold k0_pay6
  show Ideal.exp (Ideal.ofBits .f32 0x00000000#32 - min (Ideal.ofBits .f32 0x42800000#32) (max (Ideal.ofBits .f32 0xC2800000#32)
    (Ideal.ofBits .f32 0x42800000#32 * (k0_pay3 X0 X1 (ix2 b k) - Ideal.ofBits .f32 0x3ECCCCCD#32) - k0_pay4 X3))) = _
  rw [pay3_apply, pay4_eq, Ideal.ofBits_zero_f32, zero_sub]
  rfl

/-! ## The two lane sums -/

/-- The sum of an [a, c] matrix over its first axis, at column j. -/
theorem sum_first2 {a c : ℕ} {φ : FTy} (src : FVec Ideal ⟨2, ![a, c]⟩ φ) (acc : BitVec φ.bits)
    (h : (⟨2, ![a, c]⟩ : Shape).Reduces [0] ⟨1, ![c]⟩) (hφ : FKind.Formats φ) (hacc : acc = FKind.add.neutral φ hφ) (j : Fin c) :
    multiReduction .add [0] ⟨1, ![c]⟩ src acc h hφ hacc (ix1 j) = ∑ i : Fin a, src (ix2 i j) :=
  (Ideal.multiReduction_add_single src acc h hφ hacc (ix1 j)).trans
    (Finset.sum_congr rfl fun i _ => congrArg src (funext fun d => Fin.ext (by
      match d with | ⟨0, _⟩ => rfl | ⟨1, _⟩ => rfl)))

/-- The sum over the lanes of each row, then over the rows, is the sum of all the tile's contributions. -/
theorem totalSum_apply (M : FVec Ideal S512x1024 .f32)
    (h1 : S512x1024.Reduces [1] S512) (hφ1 : FKind.Formats .f32) (hacc1 : (0x00000000#32 : BitVec 32) = FKind.add.neutral .f32 hφ1)
    (hsc1 : S512.ShapeCasts S512x1)
    (h0 : S512x1.Reduces [0] S1) (hφ0 : FKind.Formats .f32) (hacc0 : (0x00000000#32 : BitVec 32) = FKind.add.neutral .f32 hφ0)
    (hsc0 : S1.ShapeCasts S1x1) (u v : Fin 1) :
    shapeCast S1x1 (multiReduction .add [0] S1
        (shapeCast S512x1 (multiReduction .add [1] S512 M 0x00000000#32 h1 hφ1 hacc1) hsc1) 0x00000000#32 h0 hφ0 hacc0) hsc0 (ix2 u v)
      = ∑ b : Fin 512, ∑ k : Fin 1024, M (ix2 b k) := by
  refine (Cert.LibKeepdims.shapeCast_a_a1_apply _ hsc0 u v).trans ?_
  refine (sum_first2 _ _ h0 hφ0 hacc0 u).trans ?_
  refine Finset.sum_congr rfl fun b _ => ?_
  exact (Cert.LibKeepdims.shapeCast_a_a1_apply _ hsc1 b u).trans (Cert.LibRank3.sum_last2 M _ h1 hφ1 hacc1 b)

/-! ## One contribution, and the tile -/

/-- The label column read along the lanes: entry (b, k) is row b's label. -/
theorem label_apply (X2 : Vec Ideal S512x1 .i32) (hsc : S512x1.ShapeCasts S512x1) (hbc : S512x1.Broadcasts S512x1024)
    (b : Fin 512) (k : Fin 1024) :
    broadcastTo S512x1024 (shapeCast S512x1 X2 hsc) hbc (ix2 b k) = X2 (ix2 b (0 : Fin 1)) := by
  rw [shapeCast_self]
  exact Cert.LibKeepdims.broadcastTo_a1_ab_apply X2 hbc b k

/-- The class number at (b, k) of tile t. -/
theorem classIdx_apply (t : Nat) (hi : S512x1024.Iotas .tc 32 [1]) (b : Fin 512) (k : Fin 1024) :
    addi (broadcast S512x1024 (Scalar.muli (BitVec.ofNat 32 t) 1024#32)) (iota .tc S512x1024 32 [1] hi) (ix2 b k)
      = BitVec.ofNat 32 (1024 * t + k.val) :=
  classWord t k.val

/-- What point t adds to the accumulator: the accumulator's entry plus the tile's sum of contributions. -/
theorem pay1_eq (t : Nat) (ht : t < 98) (X0 : Vec Ideal S1024x512 .f32) (X1 : Vec Ideal S512x512 .bf16) (X2 : Vec Ideal S512x1 .i32)
    (X3 X4 : Vec Ideal S1x1 .f32) :
    k0_pay1 (F := Ideal) (BitVec.ofNat 32 t) (k0_pay5 X0 X1 X3) (k0_pay6 X0 X1 X3) X2 X4
      = fun _ => (X4 (ix2 0 0) : EReal) + tileSum X1 X0 (fun b => X2 (ix2 b 0)) (X3 (ix2 0 0)) t := by
  funext j
  obtain rfl := idx_one j
  unfold k0_pay1
  show shapeCast S1x1 X4 _ (ix2 0 0) + shapeCast S1x1 _ _ (ix2 0 0) = _
  rw [shapeCast_self]
  refine congrArg (X4 (ix2 0 0) + ·) ?_
  refine (totalSum_apply _ _ _ _ _ _ _ _ _ 0 0).trans ?_
  unfold tileSum
  refine Finset.sum_congr rfl fun b _ => Finset.sum_congr rfl fun k _ => ?_
  show Scalar.select (IntOp.cmpi .slt (addi _ _ (ix2 b k)) 100000#32)
      (Scalar.select (IntOp.cmpi .eq (addi _ _ (ix2 b k)) (broadcastTo S512x1024 _ _ (ix2 b k)))
        (Ideal.log1p (k0_pay6 X0 X1 X3 (ix2 b k))) (Ideal.log1p (Ideal.exp (k0_pay5 X0 X1 X3 (ix2 b k)))))
      (Ideal.ofBits .f32 0x00000000#32) = _
  rw [classIdx_apply t _ b k, label_apply, pay5_apply, pay6_apply,
    lossSelect _ (by have := k.isLt; omega)]
  rfl

/-- What point 0 first stores: zero. -/
theorem pay2_eq : k0_pay2 (F := Ideal) = fun _ => (0 : EReal) := by
  funext j
  unfold k0_pay2
  exact Ideal.ofBits_zero_f32

end Cert.TileValue

end
-- ==== Proof.KRun.lean ====
/-
  The idealized kernel's body obligation and run. On the extended reals the body's result is the accumulator (zero at
  the first point) plus the tile's sum of losses, and a class past the table's end contributes zero whatever its row
  holds — so the result does not depend on the words the clipped fetch leaves past the table's end, which is what lets
  the running sum be named point by point. With that, the body's triple gives the obligation at every point, the
  library's launch theorem for a region between host lines gives the run, and the run gives the frame.
-/
import proofs.«112446_j19344532701365_1_alg».proof.Proof.KData
import proofs.«112446_j19344532701365_1_alg».proof.Proof.Bridge
import proofs.«112446_j19344532701365_1_alg».proof.Proof.TileValue
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.MarginLoss Idealize.ShloMosaic.ValueIdx

open Cert.TileValue

variable (m : (ℓ : Loc nD τ sig) → Buf (Elt Ideal) ℓ) (ρ : Dev nD → PrngReg)

/-- At the extended reals the body's result at point `t` is the accumulator (zero at the first point) plus the tile's sum. -/
theorem bodyOut_eq (t : Fin cfg0.N) (X0 : Vec Ideal S1024x512 .f32) (X1 : Vec Ideal S512x512 .bf16) (X2 : Vec Ideal S512x1 .i32)
    (X3 X4 : Vec Ideal S1x1 .f32) :
    bodyOut (F := Ideal) (grid0.coords t) X0 X1 X2 X3 X4
      = fun _ => (if t.val = 0 then (0 : EReal) else X4 (ix2 0 0)) + tileSum X1 X0 (fun b => X2 (ix2 b 0)) (X3 (ix2 0 0)) t.val := by
  unfold bodyOut
  rw [coords_val t, pay1_eq t.val t.isLt]
  funext _
  by_cases h0 : t.val = 0
  · rw [if_pos h0, if_pos h0, pay2_eq]
  · rw [if_neg h0, if_neg h0]

/-- So it does not depend on the rows of the tile past the table's end. -/
theorem bodyOut_congr (t : Fin cfg0.N) (X0 X0' : Vec Ideal S1024x512 .f32) (X1 : Vec Ideal S512x512 .bf16) (X2 : Vec Ideal S512x1 .i32)
    (X3 X4 X4' : Vec Ideal S1x1 .f32)
    (h : ∀ (k : Fin 1024) (d : Fin 512), 1024 * t.val + k.val < 100000 → X0 (ix2 k d) = X0' (ix2 k d))
    (h4 : t.val ≠ 0 → X4 = X4') :
    bodyOut (F := Ideal) (grid0.coords t) X0 X1 X2 X3 X4 = bodyOut (F := Ideal) (grid0.coords t) X0' X1 X2 X3 X4' := by
  rw [bodyOut_eq, bodyOut_eq, tileSum_congr _ X0 X0' _ _ _ h]
  funext _
  by_cases h0 : t.val = 0
  · rw [if_pos h0, if_pos h0]
  · rw [if_neg h0, if_neg h0, h4 h0]

/-- Two fills of the tile agree on the rows inside the table. -/
theorem fill_agree (t : Fin cfg0.N) (d d' : S1024x512.Idx → EReal) (g : (win0_0.xblock (grid0.coords t)).Idx → EReal)
    (k : Fin 1024) (q : Fin 512) (h : 1024 * t.val + k.val < 100000) :
    win0_0.fill (grid0.coords t) d g (ix2 k q) = win0_0.fill (grid0.coords t) d' g (ix2 k q) := by
  unfold Window.fill
  rw [dif_pos (moved_of_lt t (ix2 k q) h), dif_pos (moved_of_lt t (ix2 k q) h)]

/-- What the body leaves in the output's buffer at point `t`, whatever the table's buffer held past the table's end and
    whatever the output's buffer held at the first point. -/
theorem out_eq (c : Dev nD) (t : Fin cfg0.N) (d0 : S1024x512.Idx → EReal) (d4 : S1x1.Idx → EReal) :
    bodyOut (F := Ideal) (grid0.coords t) (win0_0.fill (grid0.coords t) d0 (iblk m c 0 t)) (iblk m c 1 t) (iblk m c 2 t) (iblk m c 3 t)
        ((dats m 0 c).before (4 : Fin 5) t d4)
      = accN m c t.val t.isLt := by
  obtain ⟨n, hn⟩ := t
  cases n with
  | zero =>
    show _ = bodyOut (grid0.coords ⟨0, hn⟩) (wBlk m c ⟨0, hn⟩) (iblk m c 1 ⟨0, hn⟩) (iblk m c 2 ⟨0, hn⟩) (iblk m c 3 ⟨0, hn⟩) (fun _ => (0 : EReal))
    exact bodyOut_congr ⟨0, hn⟩ _ _ _ _ _ _ _ (fun k q h => fill_agree ⟨0, hn⟩ _ _ _ k q h) (fun h => absurd rfl h)
  | succ n =>
    show _ = bodyOut (grid0.coords ⟨n + 1, hn⟩) (wBlk m c ⟨n + 1, hn⟩) (iblk m c 1 ⟨n + 1, hn⟩) (iblk m c 2 ⟨n + 1, hn⟩) (iblk m c 3 ⟨n + 1, hn⟩)
      (accN m c n (Nat.lt_of_succ_lt hn))
    exact bodyOut_congr ⟨n + 1, hn⟩ _ _ _ _ _ _ _ (fun k q h => fill_agree ⟨n + 1, hn⟩ _ _ _ k q h)
      (fun h => before_4_succ m c ⟨n + 1, hn⟩ h d4)

/-! ## The body obligation -/

theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (sound_body (F := Ideal) c Set.univ (grid0.coords t) (cfg0.slots t 0) (cfg0.slots t 1) (cfg0.slots t 2) (cfg0.slots t 3) (cfg0.slots t 4)
    (win0_0.fill (grid0.coords t) d0 (iblk m c 0 t)) (iblk m c 1 t) (iblk m c 2 t) (iblk m c 3 t) ((dats m 0 c).before (4 : Fin 5) t d4) _)
  isplitl [H0 H1 H2 H3 H4]
  · isplitl [H0]
    · iexact H0
    isplitl [H1]
    · iexact H1
    isplitl [H2]
    · iexact H2
    isplitl [H3]
    · iexact H3
    · iexact H4
  iintro ⟨H0, H1, H2, H3, H4⟩
  isplitl [HΦ]; · iexact HΦ
  isplitl [Ho]; · iexact Ho
  have hx : win0_0.cut (grid0.coords t) (wBlk m c t) = iblk m c 0 t := win0_0.cut_fill _ _ _
  isplitl [H0]
  · iexists d0
    change _ ⊢ owns (c : Thread nD τ) (stage0_0 (cfg0.slots t 0)) fullShare (win0_0.fill (grid0.coords t) d0 (win0_0.cut (grid0.coords t) (wBlk m c t)))
    rw [hx]; try iexact H0
  isplitl [H1]
  · iexact H1
  isplitl [H2]
  · iexact H2
  isplitl [H3]
  · iexact H3
  · rw [out_eq m c t d0 d4]; iexact H4

/-! ## The run, and the frame -/

theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) 0 launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

theorem frame_run : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (fun _ _ => rfl) (run_main m ρ)

end Cert.KernelIdeal.Hand

end
-- ==== Proof.KFound.lean ====
/-
  What the pipelined region finds in its windows, at the ideal instance: each window's block at a grid point as a
  function of the argument arrays. The batch window holds the batch with every row scaled to unit length (the host
  normalizes it before the region); the label and bias windows hold the labels and the bias, reshaped; the table
  window's block at point `t` holds rows `1024 t … 1024 t + 1023` of the class table, as far as they lie inside it.
-/
import proofs.«112446_j19344532701365_1_alg».proof.Proof.KData
import proofs.«112446_j19344532701365_1_alg».proof.Proof.LibKeepdims
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Found

open Cert.KernelIdeal Cert.KernelIdeal.Gen Cert.KernelIdeal.Hand Cert.MarginLoss
open Idealize.ShloMosaic Idealize.ShloMosaic.TcCoe Idealize.ShloMosaic.ValueIdx
open Idealize.SL Idealize.SL.Sem
open scoped BigOperators

variable (m : (ℓ : Loc nD τ sig) → Buf (Elt Ideal) ℓ)

/-! ## The block indices, decided once over the grid -/

/-- The table's window moves down one block of rows per point; the three resident windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0)

/-! ## The resident windows hold their whole arrays -/

/-- The batch window's block at every point is the whole array it stages. -/
theorem iblk1_read (c : Dev nD) (t : Fin cfg0.N) : (iblk m c 1 t : S512x512.Idx → EReal) = V m c main_v8 := by
  funext y
  show V m c main_v8 (((cfg0.win 1).blk t).view.emb y) = V m c main_v8 y
  obtain ⟨-, -, e0, e1, -⟩ := idx_facts t
  refine congrArg (V m c main_v8) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The label window's block at every point is the whole array it stages. -/
theorem iblk2_read (c : Dev nD) (t : Fin cfg0.N) : (iblk m c 2 t : S512x1.Idx → BitVec 32) = V m c main_v9 := by
  funext y
  show V m c main_v9 (((cfg0.win 2).blk t).view.emb y) = V m c main_v9 y
  obtain ⟨-, -, -, -, e0, e1, -⟩ := idx_facts t
  refine congrArg (V m c main_v9) (funext fun a => Fin.ext ?_)
  match a with
  | ⟨0, _⟩ => show win0_2.index t (0 : Fin 2) * 512 + 1 * (y 0).val = (y 0).val; omega
  | ⟨1, _⟩ => show win0_2.index t (1 : Fin 2) * 1 + 1 * (y 1).val = (y 1).val; omega

/-- The bias window's block at every point is the whole array it stages. -/
theorem iblk3_read (c : Dev nD) (t : Fin cfg0.N) : (iblk m c 3 t : S1x1.Idx → EReal) = V m c main_v10 := by
  funext y
  show V m c main_v10 (((cfg0.win 3).blk t).view.emb y) = V m c main_v10 y
  obtain ⟨-, -, -, -, -, -, e0, e1⟩ := idx_facts t
  refine congrArg (V m c main_v10) (funext fun a => Fin.ext ?_)
  match a with
  | ⟨0, _⟩ => show win0_3.index t (0 : Fin 2) * 1 + 1 * (y 0).val = (y 0).val; omega
  | ⟨1, _⟩ => show win0_3.index t (1 : Fin 2) * 1 + 1 * (y 1).val = (y 1).val; omega

/-! ## The table's window -/

/-- A row of tile `t` whose class lies inside the table is that row of the table as launched, whatever the staging
    buffer held before the fetch. -/
theorem tile_apply (c : Dev nD) (t : Fin cfg0.N) (d : S1024x512.Idx → EReal) (k : Fin 1024) (q : Fin 512)
    (h : 1024 * t.val + k.val < 100000) :
    win0_0.fill (grid0.coords t) d (iblk m c 0 t) (ix2 k q)
      = m ((c : Thread nD τ).loc main_arg2) (ix2 ⟨1024 * t.val + k.val, h⟩ q) := by
  unfold Pipeline.Window.fill
  rw [dif_pos (moved_of_lt t (ix2 k q) h), ← V_main_arg2 m c]
  show V m c main_arg2 (((cfg0.win 0).blk t).view.emb _) = V m c main_arg2 _
  obtain ⟨e0, e1, -⟩ := idx_facts t
  refine congrArg (V m c main_arg2) (funext fun a => Fin.ext ?_)
  match a with
  | ⟨0, _⟩ => show win0_0.index t (0 : Fin 2) * 1024 + 1 * k.val = 1024 * t.val + k.val; omega
  | ⟨1, _⟩ => show win0_0.index t (1 : Fin 2) * 512 + 1 * q.val = q.val; omega

/-! ## What the host operations before the region leave in the staged arrays -/

/-- The sums of the rows' squares, as the host's reduction from the zero word leaves them. -/
def hostSq (x : S512x512.Idx → EReal) : S512.Idx → EReal :=
  Host.reduceAdd (F := Ideal) (φ := .f32) (mulf (F := Ideal) (φ := .f32) x x) (constant (F := Ideal) S_ .f32 0x00000000#32) reducesTo_S512x512_S512_d1 h_S_

/-- The rows' lengths as a column, floored at the broadcast floor word. -/
def hostLen (x : S512x512.Idx → EReal) : S512x1.Idx → EReal :=
  maximumf (F := Ideal) (φ := .f32) (Host.sqrt (F := Ideal) (φ := .f32) (broadcastInDim S512x1 ![0] bcast_S512_S512x1_0 (hostSq x)))
    (broadcastInDim S512x1 ![] bcast_S_S512x1 (constant (F := Ideal) S_ .f32 0x3727C5AC#32))

/-- The batch divided row by row by those lengths, and narrowed (the identity on extended reals). -/
def hostNorm (x : S512x512.Idx → EReal) : S512x512.Idx → EReal :=
  truncf (F := Ideal) (φ := .f32) .bf16 (Host.divf (F := Ideal) (φ := .f32) x (broadcastInDim S512x512 ![0, 1] bcast_S512x1_S512x512_0_1 (hostLen x))) bitsLt_bf16_f32

/-- The array the batch window stages is that term of the batch as launched. -/
theorem V_main_v8 (c : Dev nD) : (V m c main_v8 : S512x512.Idx → EReal) = hostNorm (m ((c : Thread nD τ).loc main_arg0)) := by
  show StableHlo.after hostOps0 (fun b => m (c, b)) (Proc.devRef .tc main_v8) = _
  after_results
  rfl

/-- The array the label window stages is the labels as launched, cast to a column. -/
theorem V_main_v9 (c : Dev nD) : (V m c main_v9 : S512x1.Idx → BitVec 32)
    = shapeCast S512x1 (m ((c : Thread nD τ).loc main_arg1) : S512.Idx → BitVec 32) shapeCasts_S512_S512x1 := by
  show StableHlo.after hostOps0 (fun b => m (c, b)) (Proc.devRef .tc main_v9) = _
  after_results
  rfl

/-- The array the bias window stages is the bias as launched, cast to a 1 × 1 matrix. -/
theorem V_main_v10 (c : Dev nD) : (V m c main_v10 : S1x1.Idx → EReal)
    = shapeCast S1x1 (m ((c : Thread nD τ).loc main_arg3) : S1.Idx → EReal) shapeCasts_S1_S1x1 := by
  show StableHlo.after hostOps0 (fun b => m (c, b)) (Proc.devRef .tc main_v10) = _
  after_results
  rfl

/-! ## The staged arrays read at an index -/

/-- The host's reduction over the columns, from the zero word, at row `b`: the sum of the row. -/
theorem hostReduce_row (y : S512x512.Idx → EReal) (b : Fin 512) :
    Host.reduceAdd (F := Ideal) (φ := .f32) y (constant (F := Ideal) S_ .f32 0x00000000#32) reducesTo_S512x512_S512_d1 h_S_ (ix1 b)
      = ∑ d : Fin 512, y (ix2 b d) := by
  simp only [Host.reduceAdd, Ideal.hostReduceAdd_def]
  rw [Ideal.hostReduceAdd_single reducesTo_S512x512_S512_d1 (by decide)]
  refine (congrArg (· + _) Ideal.ofBits_zero_f32).trans ((zero_add _).trans (Finset.sum_congr rfl fun k _ => ?_))
  exact congrArg y (funext fun a => Fin.ext (by match a with | ⟨0, _⟩ => rfl | ⟨1, _⟩ => rfl))

/-- The sum of row `b`'s squares. -/
theorem hostSq_apply (x : S512x512.Idx → EReal) (b : Fin 512) :
    hostSq x (ix1 b) = ∑ d : Fin 512, x (ix2 b d) * x (ix2 b d) :=
  hostReduce_row (mulf (F := Ideal) (φ := .f32) x x) b

/-- The floored length of row `b`. -/
theorem hostLen_apply (x : S512x512.Idx → EReal) (b : Fin 512) : hostLen x (ix2 b (0 : Fin 1)) = len x b := by
  unfold hostLen len
  show max (Ideal.sqrt (broadcastInDim S512x1 ![0] bcast_S512_S512x1_0 (hostSq x) (ix2 b (0 : Fin 1))))
      (broadcastInDim S512x1 ![] bcast_S_S512x1 (constant (F := Ideal) S_ .f32 0x3727C5AC#32) (ix2 b (0 : Fin 1))) = _
  rw [broadcastInDim_apply _ bcast_S512_S512x1_0 (hostSq x) (ix2 b (0 : Fin 1)) (ix1 b) (fun a => match a with
      | ⟨0, _⟩ => by show b.val = if (512 : Nat) = 1 then 0 else b.val; rw [if_neg (by decide)]),
    broadcastInDim_apply _ bcast_S_S512x1 _ (ix2 b (0 : Fin 1)) ix0 (fun a => a.elim0), hostSq_apply]
  rfl

/-- Entry `(b, q)` of the staged batch: the launched entry over its row's floored length. -/
theorem hostNorm_apply (x : S512x512.Idx → EReal) (b q : Fin 512) : hostNorm x (ix2 b q) = unit x b q := by
  unfold hostNorm unit
  show Ideal.div (x (ix2 b q)) (broadcastInDim S512x512 ![0, 1] bcast_S512x1_S512x512_0_1 (hostLen x) (ix2 b q)) = _
  rw [broadcastInDim_apply _ bcast_S512x1_S512x512_0_1 (hostLen x) (ix2 b q) (ix2 b (0 : Fin 1)) (fun a => match a with
      | ⟨0, _⟩ => by show b.val = if (512 : Nat) = 1 then 0 else b.val; rw [if_neg (by decide)]
      | ⟨1, _⟩ => by show 0 = if (1 : Nat) = 1 then 0 else q.val; rw [if_pos rfl]), hostLen_apply]

/-- The staged batch is the launched batch with every row scaled to unit length. -/
theorem hostNorm_eq (x : S512x512.Idx → EReal) : hostNorm x = normalize x := by
  funext j
  obtain ⟨b, q, rfl⟩ : ∃ (b q : Fin 512), j = ix2 b q := ⟨j 0, j 1, eq_ix2 j⟩
  exact hostNorm_apply x b q

/-! ## The windows' blocks as functions of the arguments -/

/-- The batch window holds, at every point, the launched batch with every row scaled to unit length. -/
theorem iblk1_eq (c : Dev nD) (t : Fin cfg0.N) :
    (iblk m c 1 t : S512x512.Idx → EReal) = normalize (m ((c : Thread nD τ).loc main_arg0)) := by
  rw [iblk1_read, V_main_v8, hostNorm_eq]

/-- The label window holds, at every point, row `b`'s label in row `b` of its one column. -/
theorem iblk2_apply (c : Dev nD) (t : Fin cfg0.N) (b : Fin 512) :
    (iblk m c 2 t : S512x1.Idx → BitVec 32) (ix2 b 0) = m ((c : Thread nD τ).loc main_arg1) (ix1 b) := by
  rw [iblk2_read, V_main_v9]
  exact Cert.LibKeepdims.shapeCast_a_a1_apply _ shapeCasts_S512_S512x1 b 0

/-- The bias window holds, at every point, the bias in its one entry. -/
theorem iblk3_apply (c : Dev nD) (t : Fin cfg0.N) :
    (iblk m c 3 t : S1x1.Idx → EReal) (ix2 0 0) = m ((c : Thread nD τ).loc main_arg3) (ix1 0) := by
  rw [iblk3_read, V_main_v10]
  exact Cert.LibKeepdims.shapeCast_a_a1_apply _ shapeCasts_S1_S1x1 0 0

end Cert.KernelIdeal.Found

end
-- ==== Proof.KValue.lean ====
/-
  The idealized kernel's result. After the run the (1,1) output array holds what the body left at the last point; the
  host reshapes it to a scalar and divides by the batch size. The running sum starts at the first tile's sum and grows
  by each later tile's; the batch block is the argument's rows scaled to unit length, the label and bias blocks are the
  arguments' entries, and a tile's rows inside the table are the table's rows: so the 98 tiles' sums add up to the sum
  over all 512 × 100000 (row, class) pairs, and the result is the specification's mean.
-/
import proofs.«112446_j19344532701365_1_alg».proof.Proof.KRun
import proofs.«112446_j19344532701365_1_alg».proof.Proof.KFound
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.MarginLoss Idealize.ShloMosaic.ValueIdx

open Cert.KernelIdeal.Found

variable (m : (ℓ : Loc nD τ sig) → Buf (Elt Ideal) ℓ) (ρ : Dev nD → PrngReg)

theorem lt97 : 97 < cfg0.N := by decide

/-- A (1,1) array has one index. -/
theorem idx11 (i j : S1x1.Idx) : i = j := funext fun a => Fin.ext (by
  have hi : (i a).val < 1 := by have := (i a).isLt; fin_cases a <;> exact this
  have hj : (j a).val < 1 := by have := (j a).isLt; fin_cases a <;> exact this
  omega)

/-- Only the last point writes the output back, and its block is the whole (1,1) array: after the run the array
    holds what the body left there. -/
theorem final4 (c : Dev nD) : (dats m 0 c).arrAt (4 : Fin 5) cfg0.N = (accN m c 97 lt97 : S1x1.Idx → EReal) := by
  refine (dats m 0 c).arrAt_eq_of_cover (4 : Fin 5) _ (fun t hf => ?_) (fun i => ?_)
  · have h97 : t.val = 97 := by
      have h := (flush0_4 t).mp hf; have hN : t.val < 98 := t.isLt; omega
    obtain ⟨n, hn⟩ := t
    obtain rfl : n = 97 := h97
    funext y
    rw [View.read_apply]
    show accN m c 97 hn _ = accN m c 97 lt97 _
    exact congrArg _ (idx11 _ _)
  · refine ⟨⟨97, lt97⟩, (flush0_4 _).mpr (by decide), ?_⟩
    show i ∈ ((View.whole main_v11).slice (win0_4.rect ⟨97, lt97⟩)).set
    rw [View.set_slice_whole, Rect.mem_set_unit]
    intro a
    have hf : ∀ a : Fin 2, win0_4.index ⟨97, lt97⟩ a * win0_4.size a = 0 ∧ win0_4.xsize (grid0.coords ⟨97, lt97⟩) a = 1 := by
      decide +kernel
    have hi : (i a).val < 1 := by have := (i a).isLt; fin_cases a <;> exact this
    rw [(hf a).1, (hf a).2]; omega

/-- The result: the host reshapes the (1,1) output to a scalar and divides it by the batch size. -/
theorem v13_eq (c : Dev nD) : Pipeline.afterTail₀ cfgs (dats m) 0 (V0 m) [hostOps1] c main_v13
    = fun _ => Ideal.div (accN m c 97 lt97 (ix2 0 0)) batch := by
  unfold Pipeline.afterTail₀
  show StableHlo.after hostOps1 _ (Proc.devRef .tc main_v13) = _
  after_results
  have e := Pipeline.withArrays_arr (τ := τ) spec0 launch0.win.arr_inj c (V0 m c) (fun w => (dats m 0 c).arrAt w (cfgs 0).N) (4 : Fin 5)
  funext x
  have hw : Pipeline.withArrays (cfgs 0).spec c (V0 m c) (fun w => (dats m 0 c).arrAt w (cfgs 0).N) (Proc.tc.devRef main_v11)
      = (accN m c 97 lt97 : S1x1.Idx → EReal) := e.trans (final4 m c)
  rw [hw]
  show Ideal.div (accN m c 97 lt97 _) batch = Ideal.div (accN m c 97 lt97 (ix2 0 0)) batch
  exact congrArg (fun z => Ideal.div (accN m c 97 lt97 z) batch) (idx11 _ _)

/-- The tile the staging buffer holds at point `n` (nothing past the grid). -/
def tileN (c : Dev nD) (n : ℕ) : Mat 1024 512 := if h : n < cfg0.N then wBlk m c ⟨n, h⟩ else fun _ => 0

/-- The running result as a sequence. -/
def accSeq (c : Dev nD) (n : ℕ) : EReal := if h : n < cfg0.N then accN m c n h (ix2 0 0) else 0

/-- The kernel's result is the mean: the running result starts at the first tile's sum, grows by each later tile's,
    the tiles' rows inside the table are the table's rows, and the 98 tiles' sums add up to the whole sum. -/
theorem kernel_value (c : Dev nD) :
    Ideal.div (accN m c 97 lt97 (ix2 0 0)) batch
      = mean (m ((c : Thread nD τ).loc main_arg0)) (m ((c : Thread nD τ).loc main_arg2))
          (fun b => m ((c : Thread nD τ).loc main_arg1) (ix1 b)) (m ((c : Thread nD τ).loc main_arg3) (ix1 0)) := by
  have hN : cfg0.N = 98 := N_0
  have key := acc_mean (m ((c : Thread nD τ).loc main_arg0)) (m ((c : Thread nD τ).loc main_arg2))
    (fun b => m ((c : Thread nD τ).loc main_arg1) (ix1 b)) (m ((c : Thread nD τ).loc main_arg3) (ix1 0)) (tileN m c)
    (fun t k d h => by
      have ht : t < cfg0.N := by rw [hN]; omega
      unfold tileN; rw [dif_pos ht]
      exact tile_apply m c ⟨t, ht⟩ _ k d h)
    (accSeq m c)
    (by
      have h0 : 0 < cfg0.N := by rw [hN]; omega
      unfold accSeq tileN; rw [dif_pos h0, dif_pos h0]
      show bodyOut (grid0.coords ⟨0, h0⟩) (wBlk m c ⟨0, h0⟩) (iblk m c 1 ⟨0, h0⟩) (iblk m c 2 ⟨0, h0⟩) (iblk m c 3 ⟨0, h0⟩) (fun _ => (0 : EReal)) (ix2 0 0) = _
      rw [bodyOut_eq, iblk1_eq m c ⟨0, h0⟩, iblk3_apply m c ⟨0, h0⟩]
      simp only [iblk2_apply m c ⟨0, h0⟩]
      rfl)
    (fun n hn => by
      have h1 : n + 1 < cfg0.N := by rw [hN]; omega
      have h2 : n < cfg0.N := by omega
      unfold accSeq tileN; rw [dif_pos h1, dif_pos h1, dif_pos h2]
      show bodyOut (grid0.coords ⟨n + 1, h1⟩) (wBlk m c ⟨n + 1, h1⟩) (iblk m c 1 ⟨n + 1, h1⟩) (iblk m c 2 ⟨n + 1, h1⟩) (iblk m c 3 ⟨n + 1, h1⟩)
        (accN m c n (Nat.lt_of_succ_lt h1)) (ix2 0 0) = _
      rw [bodyOut_eq, iblk1_eq m c ⟨n + 1, h1⟩, iblk3_apply m c ⟨n + 1, h1⟩]
      simp only [iblk2_apply m c ⟨n + 1, h1⟩]
      rfl)
  unfold accSeq at key
  rw [dif_pos lt97] at key
  exact key

/-- The idealized kernel's run: it terminates, its result is the mean, and its arguments end as launched. -/
theorem run_value : θ_run defs (onTc (τ := τ) (main (F := Ideal))) ⟨m, fun _ => 0, ρ⟩ (fun r => ∀ c : Dev nD,
      r.2.mem ((c.tc : Thread nD τ).loc main_v13)
        = (fun _ => mean (m ((c.tc : Thread nD τ).loc main_arg0)) (m ((c.tc : Thread nD τ).loc main_arg2))
            (fun b => m ((c.tc : Thread nD τ).loc main_arg1) (ix1 b)) (m ((c.tc : Thread nD τ).loc main_arg3) (ix1 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v13 (Pipeline.mem_restRefs_of main_v13 (by decide) (by decide))).trans (v13_eq m c)).trans
        (funext fun _ => kernel_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans ((((dats m) 0 c).arrAt_in 0 rfl _).trans (V_main_arg2 m c)),
      (((h c).2 main_arg3 (Pipeline.mem_restRefs_of main_arg3 (by decide) (by decide))).trans (W_main_arg3 m (dats m) c))⟩)
    (run_main m ρ)

end Cert.KernelIdeal.Hand

end
-- ==== Proof.RefValue.lean ====
/-
  What the reference computes, as one formula of its four argument arrays.

  Read index by index, the reference scales every row of the batch and of the class table to unit length (the length
  is the square root of the row's sum of squares, floored at a small positive constant), takes the 512 x 100000 matrix
  of their cosines, and at each (batch row, class) pair forms the softplus loss of the clipped, scaled cosine less the
  bias, with the margin subtracted and the sign turned where the class is the row's label. It then sums each row over
  the classes, sums the 512 row sums, and divides by the batch size. The lemmas below follow that order: a row's
  length, a unit row's entry, a cosine, the two losses, the selected loss, a row sum, the total, the mean. Each names
  the value of one intermediate array at an index built from its coordinates; the sums stay sums over the coordinate
  ranges and are never evaluated, and the initial value of each sum is the zero word, which is the extended real 0.
-/
import proofs.«112446_j19344532701365_1_alg».proof.Proof.Gen.ReferenceIdeal.Read
import proofs.«112446_j19344532701365_1_alg».proof.Proof.Spec

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The composed index functions, by coordinates -/

/-- Entry `k` of the row that the batch's length column `(b, 0)` sums over is `(b, k)`. -/
theorem idx_rowX (b : Fin 512) (z : Fin 1) (k : Fin 512) :
    Read.idx_main_call0_v1 (Read.idx_main_call0_v2 (ix2 b z)) k = ix2 b k :=
  funext fun a => Fin.ext (by match a with | ⟨0, _⟩ => rfl | ⟨1, _⟩ => rfl)

/-- Entry `d` of the row that the table's length column `(k, 0)` sums over is `(k, d)`. -/
theorem idx_rowW (k : Fin 100000) (z : Fin 1) (d : Fin 512) :
    Read.idx_main_call1_v1 (Read.idx_main_call1_v2 (ix2 k z)) d = ix2 k d :=
  funext fun a => Fin.ext (by match a with | ⟨0, _⟩ => rfl | ⟨1, _⟩ => rfl)

/-- Entry `(b, d)` of the batch is divided by the length in column position `(b, 0)`. -/
theorem idx_lenX (b d : Fin 512) : Read.idx_main_v3 (ix2 b d) = ix2 b (⟨0, Nat.one_pos⟩ : Fin 1) :=
  funext fun a => Fin.ext (by match a with | ⟨0, _⟩ => rfl | ⟨1, _⟩ => rfl)

/-- Entry `(k, d)` of the table is divided by the length in column position `(k, 0)`. -/
theorem idx_lenW (k : Fin 100000) (d : Fin 512) : Read.idx_main_v8 (ix2 k d) = ix2 k (⟨0, Nat.one_pos⟩ : Fin 1) :=
  funext fun a => Fin.ext (by match a with | ⟨0, _⟩ => rfl | ⟨1, _⟩ => rfl)

/-- The transposed table at `(d, k)` is the table at `(k, d)`. -/
theorem idx_transp (d : Fin 512) (k : Fin 100000) : Read.idx_main_v10 (ix2 d k) = ix2 k d :=
  funext fun a => Fin.ext (by match a with | ⟨0, _⟩ => rfl | ⟨1, _⟩ => rfl)

/-- The product at `(b, k)` pairs the batch's `(b, d)` … -/
theorem idx_dotL (b : Fin 512) (k : Fin 100000) (d : Fin 512) : Read.lidx_main_v11 (ix2 b k) d = ix2 b d :=
  funext fun a => Fin.ext (by match a with | ⟨0, _⟩ => rfl | ⟨1, _⟩ => rfl)

/-- … with the transposed table's `(d, k)`. -/
theorem idx_dotR (b : Fin 512) (k : Fin 100000) (d : Fin 512) : Read.ridx_main_v11 (ix2 b k) d = ix2 d k :=
  funext fun a => Fin.ext (by match a with | ⟨0, _⟩ => rfl | ⟨1, _⟩ => rfl)

/-- The bias broadcast over the loss matrix reads the bias array's one entry (first use) … -/
theorem idx_biasP (i : S512x100000.Idx) : Read.idx_main_v16 (Read.idx_main_v17 i) = ix1 (0 : Fin 1) :=
  funext fun a => Fin.ext (by match a with | ⟨0, _⟩ => rfl)

/-- … and again (second use). -/
theorem idx_biasN (i : S512x100000.Idx) : Read.idx_main_v21 (Read.idx_main_v22 i) = ix1 (0 : Fin 1) :=
  funext fun a => Fin.ext (by match a with | ⟨0, _⟩ => rfl)

/-- The label broadcast over the loss matrix at `(b, k)` is row `b`'s label. -/
theorem idx_lab (b : Fin 512) (k : Fin 100000) : Read.idx_main_call4_v0 (Read.idx_main_call4_v2 (ix2 b k)) = ix1 b :=
  funext fun a => Fin.ext (by match a with | ⟨0, _⟩ => rfl)

/-- The row sum at `b` runs over the loss matrix's `(b, k)`. -/
theorem idx_rowSum (b : Fin 512) (k : Fin 100000) : Read.idx_main_v33 (ix1 b) k = ix2 b k :=
  funext fun a => Fin.ext (by match a with | ⟨0, _⟩ => rfl | ⟨1, _⟩ => rfl)

/-! ## The stages, each at an index given by its coordinates -/

section Stages

variable (x0 : (⟨S512x512, .f32⟩ : BufTy).Contents (Elt Ideal)) (x1 : (⟨S512, .i32⟩ : BufTy).Contents (Elt Ideal))
  (x2 : (⟨S100000x512, .f32⟩ : BufTy).Contents (Elt Ideal)) (x3 : (⟨S1, .f32⟩ : BufTy).Contents (Elt Ideal))

/-- The floored length of the batch's row `b`: the square root of the row's sum of squares, or the floor if that is
    larger. The sum starts from the zero word. -/
theorem lenX (b : Fin 512) (z : Fin 1) :
    Read.val_main_v2 (F := Ideal) x0 (ix2 b z) = MarginLoss.len x0 b := by
  rw [Read.val_main_v2_apply, Read.val_main_v0_apply, Read.val_main_call0_v2_apply, Read.val_main_call0_v1_apply,
    Read.val_main_v1_apply, Read.val_main_cst_apply, Read.val_main_call0_cst_apply]
  simp only [Read.val_main_call0_v0_apply, idx_rowX, Ideal.maximumf_def, Ideal.hostUnary_sqrt_def, Ideal.mulf_def,
    Ideal.ofBits_def, Ideal.ofBits_zero_f32, zero_add]
  rfl

/-- The floored length of the table's row `k`, likewise. -/
theorem lenW (k : Fin 100000) (z : Fin 1) :
    Read.val_main_v7 (F := Ideal) x2 (ix2 k z) = MarginLoss.len x2 k := by
  rw [Read.val_main_v7_apply, Read.val_main_v5_apply, Read.val_main_call1_v2_apply, Read.val_main_call1_v1_apply,
    Read.val_main_v6_apply, Read.val_main_cst_0_apply, Read.val_main_call1_cst_apply]
  simp only [Read.val_main_call1_v0_apply, idx_rowW, Ideal.maximumf_def, Ideal.hostUnary_sqrt_def, Ideal.mulf_def,
    Ideal.ofBits_def, Ideal.ofBits_zero_f32, zero_add]
  rfl

/-- Entry `(b, d)` of the batch scaled to unit rows. -/
theorem unitX (b d : Fin 512) :
    Read.val_main_v4 (F := Ideal) x0 (ix2 b d) = MarginLoss.unit x0 b d := by
  rw [Read.val_main_v4_apply, Read.val_main_v3_apply, idx_lenX, lenX]
  rfl

/-- Entry `(k, d)` of the table scaled to unit rows. -/
theorem unitW (k : Fin 100000) (d : Fin 512) :
    Read.val_main_v9 (F := Ideal) x2 (ix2 k d) = MarginLoss.unit x2 k d := by
  rw [Read.val_main_v9_apply, Read.val_main_v8_apply, idx_lenW, lenW]
  rfl

/-- The cosine of the batch's row `b` and the table's row `k`: the product of the unit batch with the transposed unit
    table, at `(b, k)`. -/
theorem cosAt (b : Fin 512) (k : Fin 100000) :
    Read.val_main_v11 (F := Ideal) x0 x2 (ix2 b k) = MarginLoss.cosineN (MarginLoss.normalize x0) x2 b k := by
  rw [Read.val_main_v11_apply]
  unfold MarginLoss.cosineN
  refine Finset.sum_congr rfl fun d _ => ?_
  rw [idx_dotL, idx_dotR, unitX, Read.val_main_v10_apply, idx_transp, unitW]
  rfl

/-- The loss of the label's class at `(b, k)`: the cosine less the margin, scaled, less the bias, clipped from below
    and then from above, negated, through the exponential and `log (1 + ·)`. -/
theorem posAt (b : Fin 512) (k : Fin 100000) :
    Read.val_main_v27 (F := Ideal) x0 x2 x3 (ix2 b k)
      = MarginLoss.posLoss (x3 (ix1 (0 : Fin 1))) (MarginLoss.cosineN (MarginLoss.normalize x0) x2 b k) := by
  rw [Read.val_main_v27_apply, Read.val_main_v26_apply, Read.val_main_v25_apply, Read.val_main_v24_apply,
    Read.val_main_call2_v4_apply, Read.val_main_call2_v3_apply, Read.val_main_cst_5_apply,
    Read.val_main_call2_v2_apply, Read.val_main_call2_v1_apply, Read.val_main_call2_v0_apply, Read.val_main_cst_4_apply,
    Read.val_main_v18_apply, Read.val_main_v15_apply, Read.val_main_v14_apply, Read.val_main_cst_2_apply,
    Read.val_main_v13_apply, cosAt, Read.val_main_v12_apply, Read.val_main_cst_1_apply,
    Read.val_main_v17_apply, Read.val_main_v16_apply, idx_biasP]
  rfl

/-- The loss of any other class at `(b, k)`: the scaled cosine less the bias, clipped, through the exponential and
    `log (1 + ·)`. -/
theorem negAt (b : Fin 512) (k : Fin 100000) :
    Read.val_main_v30 (F := Ideal) x0 x2 x3 (ix2 b k)
      = MarginLoss.negLoss (x3 (ix1 (0 : Fin 1))) (MarginLoss.cosineN (MarginLoss.normalize x0) x2 b k) := by
  rw [Read.val_main_v30_apply, Read.val_main_v29_apply, Read.val_main_v28_apply,
    Read.val_main_call3_v4_apply, Read.val_main_call3_v3_apply, Read.val_main_cst_7_apply,
    Read.val_main_call3_v2_apply, Read.val_main_call3_v1_apply, Read.val_main_call3_v0_apply, Read.val_main_cst_6_apply,
    Read.val_main_v23_apply, Read.val_main_v20_apply, Read.val_main_v19_apply, Read.val_main_cst_3_apply,
    cosAt, Read.val_main_v22_apply, Read.val_main_v21_apply, idx_biasN]
  rfl

/-- The contribution of `(b, k)`: the first loss where row `b`'s label is the class number `k`, the second elsewhere. -/
theorem lossAt (b : Fin 512) (k : Fin 100000) :
    Read.val_main_v32 (F := Ideal) x0 x1 x2 x3 (ix2 b k)
      = MarginLoss.lossAt x0 x2 (fun r => x1 (ix1 r)) (x3 (ix1 (0 : Fin 1))) b k := by
  rw [Read.val_main_v32_apply, posAt, negAt, Read.val_main_v31_apply, Read.val_main_call4_v2_apply,
    Read.val_main_call4_v0_apply, idx_lab, Read.val_main_call4_v3_apply, Read.val_main_call4_v1_apply]
  unfold MarginLoss.lossAt
  by_cases h : x1 (ix1 b) = BitVec.ofNat 32 k.val
  · rw [if_pos h, show IntOp.cmpi .eq (x1 (ix1 b)) (BitVec.ofNat 32 ((Read.idx_main_call4_v3 (ix2 b k)) 1).val) = 1#1 from
      IntOp.cmpi_eq.mpr h, select_one]
  · rw [if_neg h, eq_zero_of_ne_one (fun hc => h (IntOp.cmpi_eq.mp hc)), select_zero]

/-- Row `b`'s sum over the classes. -/
theorem rowAt (b : Fin 512) :
    Read.val_main_v33 (F := Ideal) x0 x1 x2 x3 (ix1 b)
      = ∑ k : Fin 100000, MarginLoss.lossAt x0 x2 (fun r => x1 (ix1 r)) (x3 (ix1 (0 : Fin 1))) b k := by
  rw [Read.val_main_v33_apply, Read.val_main_cst_8_apply]
  simp only [idx_rowSum, lossAt, Ideal.ofBits_def, Ideal.ofBits_zero_f32, zero_add]

/-- The sum of the 512 row sums. -/
theorem totalAt (i : S_.Idx) :
    Read.val_main_v34 (F := Ideal) x0 x1 x2 x3 i
      = MarginLoss.total x0 x2 (fun r => x1 (ix1 r)) (x3 (ix1 (0 : Fin 1))) := by
  rw [Read.val_main_v34_apply, Read.val_main_cst_9_apply, sum_idx1 (n := 512)]
  simp only [rowAt, Ideal.ofBits_def, Ideal.ofBits_zero_f32, zero_add]
  rfl

/-- The reference's result: the total over the batch size. -/
theorem value :
    Read.val_main_v35 (F := Ideal) x0 x1 x2 x3
      = fun _ => MarginLoss.mean x0 x2 (fun r => x1 (ix1 r)) (x3 (ix1 (0 : Fin 1))) := by
  funext i
  rw [Read.val_main_v35_apply, totalAt, Read.val_main_cst_10_apply]
  rfl

end Stages

/-! ## The run -/

/-- Every weakly fair execution of the reference terminates with its result at the mean loss of its argument arrays
    — the labels read as a function of the batch row, the bias as the bias array's one entry — and the arguments
    unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v35)
        = (fun _ => Cert.MarginLoss.mean
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (fun b => m' ((c.tc : Thread Cert.ReferenceIdeal.nD Cert.ReferenceIdeal.τ).loc Cert.ReferenceIdeal.main_arg1) (ix1 b))
            (m' ((c.tc : Thread Cert.ReferenceIdeal.nD Cert.ReferenceIdeal.τ).loc Cert.ReferenceIdeal.main_arg3) (ix1 0)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun _ h c => ⟨(h c).1.trans ?_, (h c).2⟩)
    (Cert.ReferenceIdeal.Value.run (F := Ideal) m' ρ')
  rw [Read.val_main_v35_eq]
  exact value _ _ _ _

end Cert.RefValue

end
-- ==== Proof.lean ====
/-
  Both programs compute the mean, over a batch of 512 rows, of the summed margin-softplus losses of each row against
  100000 classes: rows of the batch and of the class table scaled to unit length (the length floored at a small
  constant), the cosine of a batch row and a class row, a clipped and scaled cosine less a bias — with a margin and a
  turned sign at the row's label —, log(1 + exp ·) of it, all summed and divided by 512.

  The reference forms the whole 512 × 100000 loss matrix and sums it row by row. The kernel streams the class table in
  98 tiles of 1024 rows — the last tile reaches 352 rows past the table's end, and the classes there are masked to
  zero — and adds each tile's sum into a one-element accumulator it zeroes at the first tile; the host divides by 512.
  On the extended reals addition is commutative and associative, so the two groupings of the same 51,200,000 terms agree;
  no finiteness of the inputs is needed for that, and none for the frames (no access depends on a value).

  The pieces: the specification (Spec), the reference's result read as the specification's mean (RefValue), one tile's
  payload as the accumulator plus the tile's sum (TileValue), the regrouping of the sum (Bridge), the kernel body's
  triple at any float instance (BodyK / BodyI), the blocks the kernel finds as functions of the arguments (KFound), the
  idealized kernel's run and result (KData, KRun, KValue), and the word-level kernel's frame (FrameK).
-/
import proofs.«112446_j19344532701365_1_alg».proof.Defs
import proofs.«112446_j19344532701365_1_alg».proof.Proof.Gen.Kernel
import proofs.«112446_j19344532701365_1_alg».proof.Proof.Gen.KernelIdeal
import proofs.«112446_j19344532701365_1_alg».proof.Proof.Gen.ReferenceIdeal
import proofs.«112446_j19344532701365_1_alg».proof.Proof.Gen.Pre_finite_inputs
import proofs.«112446_j19344532701365_1_alg».proof.Proof.FrameK
import proofs.«112446_j19344532701365_1_alg».proof.Proof.KValue
import proofs.«112446_j19344532701365_1_alg».proof.Proof.RefValue

noncomputable section

namespace Cert.Proof

open Idealize.ShloMosaic Idealize.ShloMosaic.ValueIdx Idealize.SL.Sem

/-- The word-level kernel runs to the end, faults nowhere and leaves its arguments as launched. -/
theorem frame_k : Cert.frame_Kernel (hKernel := Cert.Kernel.Gen.facts) (hPre_finite_inputs := Cert.Pre_finite_inputs.Gen.facts) :=
  Cert.Kernel.Hand.frame

/-- So does the idealized kernel, -/
theorem frame_ki : Cert.frame_KernelIdeal (hKernelIdeal := Cert.KernelIdeal.Gen.facts) (hPre_finite_inputs := Cert.Pre_finite_inputs.Gen.facts) :=
  fun m ρ _ => Cert.KernelIdeal.Hand.frame_run m ρ

/-- and the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefValue.run m ρ)

/-- From memories that agree on the arguments both idealized programs end at the mean of the specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
